-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x133 : Shape := ⟨2, ![100000, 133]⟩
abbrev S2x400000 : Shape := ⟨2, ![2, 400000]⟩
abbrev S400000x14 : Shape := ⟨2, ![400000, 14]⟩
abbrev S100000 : Shape := ⟨1, ![100000]⟩
abbrev S300x147 : Shape := ⟨2, ![300, 147]⟩
abbrev S300x300 : Shape := ⟨2, ![300, 300]⟩
abbrev S300x433 : Shape := ⟨2, ![300, 433]⟩
abbrev S300 : Shape := ⟨1, ![300]⟩
abbrev S1x300 : Shape := ⟨2, ![1, 300]⟩
abbrev S1 : Shape := ⟨1, ![1]⟩
abbrev S_ : Shape := ⟨0, ![]⟩

class Facts : Prop where
  bcast_S_S100000x133 : S_.BroadcastsInDim S100000x133 (![] : Fin 0 → Fin S100000x133.rank)
  reducesTo_S100000x133_S_d0_1 : S100000x133.ReducesTo [0, 1] S_
  h_S_ : 0 < S_.numel
  bcast_S_S400000x14 : S_.BroadcastsInDim S400000x14 (![] : Fin 0 → Fin S400000x14.rank)
  reducesTo_S400000x14_S_d0_1 : S400000x14.ReducesTo [0, 1] S_
  bcast_S_S300x147 : S_.BroadcastsInDim S300x147 (![] : Fin 0 → Fin S300x147.rank)
  reducesTo_S300x147_S_d0_1 : S300x147.ReducesTo [0, 1] S_
  bcast_S_S300x300 : S_.BroadcastsInDim S300x300 (![] : Fin 0 → Fin S300x300.rank)
  reducesTo_S300x300_S_d0_1 : S300x300.ReducesTo [0, 1] S_
  bcast_S_S300x433 : S_.BroadcastsInDim S300x433 (![] : Fin 0 → Fin S300x433.rank)
  reducesTo_S300x433_S_d0_1 : S300x433.ReducesTo [0, 1] S_
  bcast_S_S300 : S_.BroadcastsInDim S300 (![] : Fin 0 → Fin S300.rank)
  reducesTo_S300_S_d0 : S300.ReducesTo [0] S_
  bcast_S_S1x300 : S_.BroadcastsInDim S1x300 (![] : Fin 0 → Fin S1x300.rank)
  reducesTo_S1x300_S_d0_1 : S1x300.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S300 .f32) (main_arg10 : FVec F S1x300 .f32) (main_arg11 : FVec F S1 .f32) (main_v33 : IVec S_ 1) : IVec S_ 1 :=
  let main_v34 : FVec F S300 .f32 := Host.absf main_arg9
  let main_cst_12 : FVec F S_ .f32 := constant S_ .f32 0x7F800000#32
  let main_v35 : FVec F S300 .f32 := broadcastInDim S300 ![] bcast_S_S300 main_cst_12
  let main_v36 : IVec S300 1 := cmpf .olt main_v34 main_v35
  let main_c_13 : IVec S_ 1 := constantI S_ 1 1#1
  let main_v37 : IVec S_ 1 := (fun x v => Host.reduce IntOp.andi x v reducesTo_S300_S_d0 h_S_) main_v36 main_c_13
  let main_v38 : IVec S_ 1 := andi main_v33 main_v37
  let main_v39 : FVec F S1x300 .f32 := Host.absf main_arg10
  let main_cst_14 : FVec F S_ .f32 := constant S_ .f32 0x7F800000#32
  let main_v40 : FVec F S1x300 .f32 := broadcastInDim S1x300 ![] bcast_S_S1x300 main_cst_14
  let main_v41 : IVec S1x300 1 := cmpf .olt main_v39 main_v40
  let main_c_15 : IVec S_ 1 := constantI S_ 1 1#1
  let main_v42 : IVec S_ 1 := (fun x v => Host.reduce IntOp.andi x v reducesTo_S1x300_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S300x433 .f32) (main_arg7 : FVec F S300 .f32) (main_arg8 : FVec F S300x300 .f32) (main_arg9 : FVec F S300 .f32) (main_arg10 : FVec F S1x300 .f32) (main_arg11 : FVec F S1 .f32) (main_v13 : IVec S_ 1) (main_v16 : IVec S300x300 1) : IVec S_ 1 :=
  let main_c_5 : IVec S_ 1 := constantI S_ 1 1#1
  let main_v17 : IVec S_ 1 := (fun x v => Host.reduce IntOp.andi x v reducesTo_S300x300_S_d0_1 h_S_) main_v16 main_c_5
  let main_v18 : IVec S_ 1 := andi main_v13 main_v17
  let main_v19 : FVec F S300x433 .f32 := Host.absf main_arg6
  let main_cst_6 : FVec F S_ .f32 := constant S_ .f32 0x7F800000#32
  let main_v20 : FVec F S300x433 .f32 := broadcastInDim S300x433 ![] bcast_S_S300x433 main_cst_6
  let main_v21 : IVec S300x433 1 := cmpf .olt main_v19 main_v20
  let main_c_7 : IVec S_ 1 := constantI S_ 1 1#1
  let main_v22 : IVec S_ 1 := (fun x v => Host.reduce IntOp.andi x v reducesTo_S300x433_S_d0_1 h_S_) main_v21 main_c_7
  let main_v23 : IVec S_ 1 := andi main_v18 main_v22
  let main_v24 : FVec F S300 .f32 := Host.absf main_arg7
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  let main_v29 : FVec F S300x300 .f32 := Host.absf main_arg8
  let main_cst_10 : FVec F S_ .f32 := constant S_ .f32 0x7F800000#32
  let main_v30 : FVec F S300x300 .f32 := broadcastInDim S300x300 ![] bcast_S_S300x300 main_cst_10
  let main_v31 : IVec S300x300 1 := cmpf .olt main_v29 main_v30
  let main_c_11 : IVec S_ 1 := constantI S_ 1 1#1
  let main_v32 : IVec S_ 1 := (fun x v => Host.reduce IntOp.andi x v reducesTo_S300x300_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x133 .f32) (main_arg1 : IVec S2x400000 32) (main_arg2 : FVec F S400000x14 .f32) (main_arg3 : IVec S100000 32) (main_arg4 : FVec F S300x147 .f32) (main_arg5 : FVec F S300x300 .f32) (main_arg6 : FVec F S300x433 .f32) (main_arg7 : FVec F S300 .f32) (main_arg8 : FVec F S300x300 .f32) (main_arg9 : FVec F S300 .f32) (main_arg10 : FVec F S1x300 .f32) (main_arg11 : FVec F S1 .f32) : IVec S_ 1 :=
  let main_v0 : FVec F S100000x133 .f32 := Host.absf main_arg0
  let main_cst : FVec F S_ .f32 := constant S_ .f32 0x7F800000#32
  let main_v1 : FVec F S100000x133 .f32 := broadcastInDim S100000x133 ![] bcast_S_S100000x133 main_cst
  let main_v2 : IVec S100000x133 1 := cmpf .olt main_v0 main_v1
  let main_c : IVec S_ 1 := constantI S_ 1 1#1
  let main_v3 : IVec S_ 1 := (fun x v => Host.reduce IntOp.andi x v reducesTo_S100000x133_S_d0_1 h_S_) main_v2 main_c
  let main_v4 : FVec F S400000x14 .f32 := Host.absf main_arg2
  let main_cst_0 : FVec F S_ .f32 := constant S_ .f32 0x7F800000#32
  let main_v5 : FVec F S400000x14 .f32 := broadcastInDim S400000x14 ![] bcast_S_S400000x14 main_cst_0
  let main_v6 : IVec S400000x14 1 := cmpf .olt main_v4 main_v5
  let main_c_1 : IVec S_ 1 := constantI S_ 1 1#1
  let main_v7 : IVec S_ 1 := (fun x v => Host.reduce IntOp.andi x v reducesTo_S400000x14_S_d0_1 h_S_) main_v6 main_c_1
  let main_v8 : IVec S_ 1 := andi main_v3 main_v7
  let main_v9 : FVec F S300x147 .f32 := Host.absf main_arg4
  let main_cst_2 : FVec F S_ .f32 := constant S_ .f32 0x7F800000#32
  let main_v10 : FVec F S300x147 .f32 := broadcastInDim S300x147 ![] bcast_S_S300x147 main_cst_2
  let main_v11 : IVec S300x147 1 := cmpf .olt main_v9 main_v10
  let main_c_3 : IVec S_ 1 := constantI S_ 1 1#1
  let main_v12 : IVec S_ 1 := (fun x v => Host.reduce IntOp.andi x v reducesTo_S300x147_S_d0_1 h_S_) main_v11 main_c_3
  let main_v13 : IVec S_ 1 := andi main_v8 main_v12
  let main_v14 : FVec F S300x300 .f32 := Host.absf main_arg5
  let main_cst_4 : FVec F S_ .f32 := constant S_ .f32 0x7F800000#32
  let main_v15 : FVec F S300x300 .f32 := broadcastInDim S300x300 ![] bcast_S_S300x300 main_cst_4
  let main_v16 : IVec S300x300 1 := cmpf .olt main_v14 main_v15
  fn_part1 (F := F) main_arg6 main_arg7 main_arg8 main_arg9 main_arg10 main_arg11 main_v13 main_v16
-- ==== Kernel.lean ====
abbrev S100000x133 : Shape := ⟨2, ![100000, 133]⟩
abbrev S2x400000 : Shape := ⟨2, ![2, 400000]⟩
abbrev S400000x14 : Shape := ⟨2, ![400000, 14]⟩
abbrev S100000 : Shape := ⟨1, ![100000]⟩
abbrev S300x147 : Shape := ⟨2, ![300, 147]⟩
abbrev S300x300 : Shape := ⟨2, ![300, 300]⟩
abbrev S300x433 : Shape := ⟨2, ![300, 433]⟩
abbrev S300 : Shape := ⟨1, ![300]⟩
abbrev S1x300 : Shape := ⟨2, ![1, 300]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x133 : Shape := ⟨2, ![400000, 133]⟩
abbrev S400000x147 : Shape := ⟨2, ![400000, 147]⟩
abbrev S147x300 : Shape := ⟨2, ![147, 300]⟩
abbrev S400000x300 : Shape := ⟨2, ![400000, 300]⟩
abbrev S5000x147 : Shape := ⟨2, ![5000, 147]⟩
abbrev S5000x300 : Shape := ⟨2, ![5000, 300]⟩
abbrev S100000x300 : Shape := ⟨2, ![100000, 300]⟩
abbrev S4000x300 : Shape := ⟨2, ![4000, 300]⟩
abbrev S100000x433 : Shape := ⟨2, ![100000, 433]⟩
abbrev S433x300 : Shape := ⟨2, ![433, 300]⟩
abbrev S5000x433 : Shape := ⟨2, ![5000, 433]⟩
abbrev S4096x300 : Shape := ⟨2, ![4096, 300]⟩
abbrev S100000x1 : Shape := ⟨2, ![100000, 1]⟩
abbrev S300x1 : Shape := ⟨2, ![300, 1]⟩
abbrev S1x1 : Shape := ⟨2, ![1, 1]⟩
abbrev S4096x1 : Shape := ⟨2, ![4096, 1]⟩

abbrev nBuf : Space → Nat
  | .hbm => 74
  | .vmem => 31
  | .smem => 0
  | _ => 0

abbrev bufTy : (tb : Table) → Fin (tcTables nBuf tb) → BufTy
  | .hbm, ⟨0, _⟩ => ⟨S100000x133, .f32⟩
  | .hbm, ⟨1, _⟩ => ⟨S2x400000, .i32⟩
  | .hbm, ⟨2, _⟩ => ⟨S400000x14, .f32⟩
  | .hbm, ⟨3, _⟩ => ⟨S100000, .i32⟩
  | .hbm, ⟨4, _⟩ => ⟨S300x147, .f32⟩
  | .hbm, ⟨5, _⟩ => ⟨S300x300, .f32⟩
  | .hbm, ⟨6, _⟩ => ⟨S300x433, .f32⟩
  | .hbm, ⟨7, _⟩ => ⟨S300, .f32⟩
  | .hbm, ⟨8, _⟩ => ⟨S300x300, .f32⟩
  | .hbm, ⟨9, _⟩ => ⟨S300, .f32⟩
  | .hbm, ⟨10, _⟩ => ⟨S1x300, .f32⟩
  | .hbm, ⟨11, _⟩ => ⟨S1, .f32⟩
  | .hbm, ⟨12, _⟩ => ⟨S1x400000, .i32⟩
  | .hbm, ⟨13, _⟩ => ⟨S400000, .i32⟩
  | .hbm, ⟨14, _⟩ => ⟨S1x400000, .i32⟩
  | .hbm, ⟨15, _⟩ => ⟨S400000, .i32⟩
  | .hbm, ⟨16, _⟩ => ⟨S_, .i32⟩
  | .hbm, ⟨17, _⟩ => ⟨S400000, .i32⟩
  | .hbm, ⟨18, _⟩ => ⟨S400000, .i1⟩
  | .hbm, ⟨19, _⟩ => ⟨S_, .i32⟩
  | .hbm, ⟨20, _⟩ => ⟨S400000, .i32⟩
  | .hbm, ⟨21, _⟩ => ⟨S400000, .i32⟩
  | .hbm, ⟨22, _⟩ => ⟨S400000, .i32⟩
  | .hbm, ⟨23, _⟩ => ⟨S400000x1, .i32⟩
  | .hbm, ⟨24, _⟩ => ⟨S400000x133, .f32⟩
  | .hbm, ⟨25, _⟩ => ⟨S400000x147, .f32⟩
  | .hbm, ⟨26, _⟩ => ⟨S147x300, .f32⟩
  | .hbm, ⟨27, _⟩ => ⟨S400000x300, .f32⟩
  | .hbm, ⟨28, _⟩ => ⟨S300x300, .f32⟩
  | .hbm, ⟨29, _⟩ => ⟨S_, .f32⟩
  | .hbm, ⟨30, _⟩ => ⟨S100000x300, .f32⟩
  | .hbm, ⟨31, _⟩ => ⟨S400000x1, .i32⟩
  | .hbm, ⟨32, _⟩ => ⟨S100000x300, .f32⟩
  | .hbm, ⟨33, _⟩ => ⟨S_, .i32⟩
  | .hbm, ⟨34, _⟩ => ⟨S400000, .i32⟩
  | .hbm, ⟨35, _⟩ => ⟨S400000, .i1⟩
  | .hbm, ⟨36, _⟩ => ⟨S_, .i32⟩
  | .hbm, ⟨37, _⟩ => ⟨S400000, .i32⟩
  | .hbm, ⟨38, _⟩ => ⟨S400000, .i32⟩
  | .hbm, ⟨39, _⟩ => ⟨S400000, .i32⟩
  | .hbm, ⟨40, _⟩ => ⟨S400000x1, .i32⟩
  | .hbm, ⟨41, _⟩ => ⟨S400000x300, .f32⟩
  | .hbm, ⟨42, _⟩ => ⟨S400000x300, .f32⟩
  | .hbm, ⟨43, _⟩ => ⟨S_, .f32⟩
  | .hbm, ⟨44, _⟩ => ⟨S100000x300, .f32⟩
  | .hbm, ⟨45, _⟩ => ⟨S400000x1, .i32⟩
  | .hbm, ⟨46, _⟩ => ⟨S100000x300, .f32⟩
  | .hbm, ⟨47, _⟩ => ⟨S_, .i32⟩
  | .hbm, ⟨48, _⟩ => ⟨S400000, .i32⟩
  | .hbm, ⟨49, _⟩ => ⟨S400000, .i1⟩
  | .hbm, ⟨50, _⟩ => ⟨S_, .i32⟩
  | .hbm, ⟨51, _⟩ => ⟨S400000, .i32⟩
  | .hbm, ⟨52, _⟩ => ⟨S400000, .i32⟩
  | .hbm, ⟨53, _⟩ => ⟨S400000, .i32⟩
  | .hbm, ⟨54, _⟩ => ⟨S400000x1, .i32⟩
  | .hbm, ⟨55, _⟩ => ⟨S400000x300, .f32⟩
  | .hbm, ⟨56, _⟩ => ⟨S400000x300, .f32⟩
  | .hbm, ⟨57, _⟩ => ⟨S_, .f32⟩
  | .hbm, ⟨58, _⟩ => ⟨S100000x300, .f32⟩
  | .hbm, ⟨59, _⟩ => ⟨S400000x1, .i32⟩
  | .hbm, ⟨60, _⟩ => ⟨S100000x300, .f32⟩
  | .hbm, ⟨61, _⟩ => ⟨S100000x433, .f32⟩
  | .hbm, ⟨62, _⟩ => ⟨S433x300, .f32⟩
  | .hbm, ⟨63, _⟩ => ⟨S1x300, .f32⟩
  | .hbm, ⟨64, _⟩ => ⟨S100000x300, .f32⟩
  | .hbm, ⟨65, _⟩ => ⟨S_, .f32⟩
  | .hbm, ⟨66, _⟩ => ⟨S4096x300, .f32⟩
  | .hbm, ⟨67, _⟩ => ⟨S100000x1, .i32⟩
  | .hbm, ⟨68, _⟩ => ⟨S4096x300, .f32⟩
  | .hbm, ⟨69, _⟩ => ⟨S300x300, .f32⟩
  | .hbm, ⟨70, _⟩ => ⟨S300x1, .f32⟩
  | .hbm, ⟨71, _⟩ => ⟨S1x300, .f32⟩
  | .hbm, ⟨72, _⟩ => ⟨S1x1, .f32⟩
  | .hbm, ⟨73, _⟩ => ⟨S4096x1, .f32⟩
  | .local _ .vmem, ⟨0, _⟩ => ⟨S5000x147, .f32⟩
  | .local _ .vmem, ⟨1, _⟩ => ⟨S5000x147, .f32⟩
  | .local _ .vmem, ⟨2, _⟩ => ⟨S147x300, .f32⟩
  | .local _ .vmem, ⟨3, _⟩ => ⟨S5000x300, .f32⟩
  | .local _ .vmem, ⟨4, _⟩ => ⟨S5000x300, .f32⟩
  | .local _ .vmem, ⟨5, _⟩ => ⟨S4000x300, .f32⟩
  | .local _ .vmem, ⟨6, _⟩ => ⟨S4000x300, .f32⟩
  | .local _ .vmem, ⟨7, _⟩ => ⟨S4000x300, .f32⟩
  | .local _ .vmem, ⟨8, _⟩ => ⟨S4000x300, .f32⟩
  | .local _ .vmem, ⟨9, _⟩ => ⟨S300x300, .f32⟩
  | .local _ .vmem, ⟨10, _⟩ => ⟨S4000x300, .f32⟩
  | .local _ .vmem, ⟨11, _⟩ => ⟨S4000x300, .f32⟩
  | .local _ .vmem, ⟨12, _⟩ => ⟨S4000x300, .f32⟩
  | .local _ .vmem, ⟨13, _⟩ => ⟨S4000x300, .f32⟩
  | .local _ .vmem, ⟨14, _⟩ => ⟨S4000x300, .f32⟩
  | .local _ .vmem, ⟨15, _⟩ => ⟨S4000x300, .f32⟩
  | .local _ .vmem, ⟨16, _⟩ => ⟨S300x300, .f32⟩
  | .local _ .vmem, ⟨17, _⟩ => ⟨S4000x300, .f32⟩
  | .local _ .vmem, ⟨18, _⟩ => ⟨S4000x300, .f32⟩
  | .local _ .vmem, ⟨19, _⟩ => ⟨S5000x433, .f32⟩
  | .local _ .vmem, ⟨20, _⟩ => ⟨S5000x433, .f32⟩
  | .local _ .vmem, ⟨21, _⟩ => ⟨S433x300, .f32⟩
  | .local _ .vmem, ⟨22, _⟩ => ⟨S1x300, .f32⟩
  | .local _ .vmem, ⟨23, _⟩ => ⟨S5000x300, .f32⟩
  | .local _ .vmem, ⟨24, _⟩ => ⟨S5000x300, .f32⟩
  | .local _ .vmem, ⟨25, _⟩ => ⟨S4096x300, .f32⟩
  | .local _ .vmem, ⟨26, _⟩ => ⟨S300x300, .f32⟩
  | .local _ .vmem, ⟨27, _⟩ => ⟨S1x300, .f32⟩
  | .local _ .vmem, ⟨28, _⟩ => ⟨S300x1, .f32⟩
  | .local _ .vmem, ⟨29, _⟩ => ⟨S1x1, .f32⟩
  | .local _ .vmem, ⟨30, _⟩ => ⟨S4096x1, .f32⟩
  | _, _ => ⟨S100000x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_1 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg4_0 : Ref sig .tc := ⟨.vmem, 29, rfl⟩
abbrev cc4_stg5_0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24
abbrev cc4_sem0_0 : DmaSem sig := 25
abbrev cc4_sem1_0 : DmaSem sig := 26
abbrev cc4_sem2_0 : DmaSem sig := 27
abbrev cc4_sem3_0 : DmaSem sig := 28
abbrev cc4_sem4_0 : DmaSem sig := 29
abbrev cc4_sem5_0 : DmaSem sig := 30

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x147 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S147x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S300x300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x300 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x300 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S300x300 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x300 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x433 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S433x300 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x300 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x300 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S4096x300 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S300x300 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x300 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S300x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S4096x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  concatenates_S400000x133_S400000x14_S400000x147_d1 : Shape.Concatenates [S400000x133, S400000x14] S400000x147 1
  transposes_S300x147_S147x300_1_0 : S300x147.Transposes [1, 0] S147x300
  inb_S5000x147_S5000x147_0_0 : ∀ a, (![0, 0] : Fin 2 → Nat) a + S5000x147.size a ≤ S5000x147.size a
  h_S5000x147 : 0 < S5000x147.numel
  shapeCasts_S5000x147_S5000x147 : S5000x147.ShapeCasts S5000x147
  bitsLt_bf16_f32 : FTy.bits .bf16 < FTy.bits .f32
  inb_S147x300_S147x300_0_0 : ∀ a, (![0, 0] : Fin 2 → Nat) a + S147x300.size a ≤ S147x300.size a
  h_S147x300 : 0 < S147x300.numel
  shapeCasts_S147x300_S147x300 : S147x300.ShapeCasts S147x300
  inb_S5000x300_S5000x300_0_0 : ∀ a, (![0, 0] : Fin 2 → Nat) a + S5000x300.size a ≤ S5000x300.size a
  h_S5000x300 : 0 < S5000x300.numel
  transposes_S300x300_S300x300_1_0 : S300x300.Transposes [1, 0] S300x300
  bcast_S_S100000x300 : S_.BroadcastsInDim S100000x300 (![] : Fin 0 → Fin S100000x300.rank)
  inb_S4000x300_S4000x300_0_0 : ∀ a, (![0, 0] : Fin 2 → Nat) a + S4000x300.size a ≤ S4000x300.size a
  h_S4000x300 : 0 < S4000x300.numel
  shapeCasts_S4000x300_S4000x300 : S4000x300.ShapeCasts S4000x300
  inb_S300x300_S300x300_0_0 : ∀ a, (![0, 0] : Fin 2 → Nat) a + S300x300.size a ≤ S300x300.size a
  h_S300x300 : 0 < S300x300.numel
  shapeCasts_S300x300_S300x300 : S300x300.ShapeCasts S300x300
  concatenates_S100000x133_S100000x300_S100000x433_d1 : Shape.Concatenates [S100000x133, S100000x300] S100000x433 1
  transposes_S300x433_S433x300_1_0 : S300x433.Transposes [1, 0] S433x300
  shapeCasts_S300_S1x300 : S300.ShapeCasts S1x300
  inb_S5000x433_S5000x433_0_0 : ∀ a, (![0, 0] : Fin 2 → Nat) a + S5000x433.size a ≤ S5000x433.size a
  h_S5000x433 : 0 < S5000x433.numel
  shapeCasts_S5000x433_S5000x433 : S5000x433.ShapeCasts S5000x433
  inb_S433x300_S433x300_0_0 : ∀ a, (![0, 0] : Fin 2 → Nat) a + S433x300.size a ≤ S433x300.size a
  h_S433x300 : 0 < S433x300.numel
  shapeCasts_S433x300_S433x300 : S433x300.ShapeCasts S433x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S5000x300 : S1x300.Broadcasts S5000x300
  bcast_S_S4096x300 : S_.BroadcastsInDim S4096x300 (![] : Fin 0 → Fin S4096x300.rank)
  bcast_S100000_S100000x1_0 : S100000.BroadcastsInDim S100000x1 (![0] : Fin 1 → Fin S100000x1.rank)
  transposes_S1x300_S300x1_1_0 : S1x300.Transposes [1, 0] S300x1
  shapeCasts_S1_S1x1 : S1.ShapeCasts S1x1
  inb_S4096x300_S4096x300_0_0 : ∀ a, (![0, 0] : Fin 2 → Nat) a + S4096x300.size a ≤ S4096x300.size a
  h_S4096x300 : 0 < S4096x300.numel
  shapeCasts_S4096x300_S4096x300 : S4096x300.ShapeCasts S4096x300
  broadcasts_S1x300_S4096x300 : S1x300.Broadcasts S4096x300
  inb_S300x1_S300x1_0_0 : ∀ a, (![0, 0] : Fin 2 → Nat) a + S300x1.size a ≤ S300x1.size a
  h_S300x1 : 0 < S300x1.numel
  shapeCasts_S300x1_S300x1 : S300x1.ShapeCasts S300x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  gather_S100000x133_S400000x1_S400000x133_1_0_n_n_0_1_1133_wf : GatherDims.WF S100000x133 S400000x1 S400000x133 [1] [0] [] [0] [] 1 ![1, 133]
  dot_S5000x147_S147x300_S5000x300_1_0_0_1_n_n_wf : DotDims.WF S5000x147 S147x300 S5000x300 [1] [0] [0] [1] [] []
  scatter_S100000x300_S400000x1_S400000x300_1_0_0_1_wf : ScatterDims.WF S100000x300 S400000x1 S400000x300 [1] [0] [0] 1
  gather_S100000x300_S400000x1_S400000x300_1_0_n_n_0_1_1300_wf : GatherDims.WF S100000x300 S400000x1 S400000x300 [1] [0] [] [0] [] 1 ![1, 300]
  dot_S4000x300_S300x300_S4000x300_1_0_0_1_n_n_wf : DotDims.WF S4000x300 S300x300 S4000x300 [1] [0] [0] [1] [] []
  dot_S5000x433_S433x300_S5000x300_1_0_0_1_n_n_wf : DotDims.WF S5000x433 S433x300 S5000x300 [1] [0] [0] [1] [] []
  scatter_S4096x300_S100000x1_S100000x300_1_0_0_1_wf : ScatterDims.WF S4096x300 S100000x1 S100000x300 [1] [0] [0] 1
  dot_S4096x300_S300x300_S4096x300_1_0_0_1_n_n_wf : DotDims.WF S4096x300 S300x300 S4096x300 [1] [0] [0] [1] [] []
  dot_S4096x300_S300x1_S4096x1_1_0_0_1_n_n_wf : DotDims.WF S4096x300 S300x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x147.size a ≤ S400000x147.size a
  hwx0_0 : ∀ i : grid0.Coords, EltTy.bits .f32 = 32 ∨ (Rect.block (s := S400000x147) S5000x147.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S147x300.size a ≤ S147x300.size a
  hwx0_1 : ∀ i : grid0.Coords, EltTy.bits .f32 = 32 ∨ (Rect.block (s := S147x300) S147x300.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x300.size a ≤ S400000x300.size a
  hwx0_2 : ∀ i : grid0.Coords, EltTy.bits .f32 = 32 ∨ (Rect.block (s := S400000x300) S5000x300.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x300.size a ≤ S400000x300.size a
  hwx1_0 : ∀ i : grid1.Coords, EltTy.bits .f32 = 32 ∨ (Rect.block (s := S400000x300) S4000x300.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x300.size a ≤ S400000x300.size a
  hwx1_1 : ∀ i : grid1.Coords, EltTy.bits .f32 = 32 ∨ (Rect.block (s := S400000x300) S4000x300.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S300x300.size a ≤ S300x300.size a
  hwx1_2 : ∀ i : grid1.Coords, EltTy.bits .f32 = 32 ∨ (Rect.block (s := S300x300) S300x300.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x300.size a ≤ S400000x300.size a
  hwx1_3 : ∀ i : grid1.Coords, EltTy.bits .f32 = 32 ∨ (Rect.block (s := S400000x300) S4000x300.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x300.size a ≤ S400000x300.size a
  hwx2_0 : ∀ i : grid2.Coords, EltTy.bits .f32 = 32 ∨ (Rect.block (s := S400000x300) S4000x300.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x300.size a ≤ S400000x300.size a
  hwx2_1 : ∀ i : grid2.Coords, EltTy.bits .f32 = 32 ∨ (Rect.block (s := S400000x300) S4000x300.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S300x300.size a ≤ S300x300.size a
  hwx2_2 : ∀ i : grid2.Coords, EltTy.bits .f32 = 32 ∨ (Rect.block (s := S300x300) S300x300.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x300.size a ≤ S400000x300.size a
  hwx2_3 : ∀ i : grid2.Coords, EltTy.bits .f32 = 32 ∨ (Rect.block (s := S400000x300) S4000x300.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x433.size a ≤ S100000x433.size a
  hwx3_0 : ∀ i : grid3.Coords, EltTy.bits .f32 = 32 ∨ (Rect.block (s := S100000x433) S5000x433.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S433x300.size a ≤ S433x300.size a
  hwx3_1 : ∀ i : grid3.Coords, EltTy.bits .f32 = 32 ∨ (Rect.block (s := S433x300) S433x300.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x300.size a ≤ S1x300.size a
  hwx3_2 : ∀ i : grid3.Coords, EltTy.bits .f32 = 32 ∨ (Rect.block (s := S1x300) S1x300.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x300.size a ≤ S100000x300.size a
  hwx3_3 : ∀ i : grid3.Coords, EltTy.bits .f32 = 32 ∨ (Rect.block (s := S100000x300) S5000x300.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S4096x300.size a ≤ S4096x300.size a
  hwx4_0 : ∀ i : grid4.Coords, EltTy.bits .f32 = 32 ∨ (Rect.block (s := S4096x300) S4096x300.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S300x300.size a ≤ S300x300.size a
  hwx4_1 : ∀ i : grid4.Coords, EltTy.bits .f32 = 32 ∨ (Rect.block (s := S300x300) S300x300.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x300.size a ≤ S1x300.size a
  hwx4_2 : ∀ i : grid4.Coords, EltTy.bits .f32 = 32 ∨ (Rect.block (s := S1x300) S1x300.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S300x1.size a ≤ S300x1.size a
  hwx4_3 : ∀ i : grid4.Coords, EltTy.bits .f32 = 32 ∨ (Rect.block (s := S300x1) S300x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S4096x1.size a ≤ S4096x1.size a
  hwx4_5 : ∀ i : grid4.Coords, EltTy.bits .f32 = 32 ∨ (Rect.block (s := S4096x1) S4096x1.size (cc4_transform_5 i) (hinb4_5 i)).WholeWords (EltTy.packing .f32)

variable [Facts₀]

def gather_S100000x133_S400000x1_S400000x133_1_0_n_n_0_1_1133 : GatherDims S100000x133 S400000x1 S400000x133 where
  offsetDims := [1]
  collapsedSliceDims := [0]
  operandBatchingDims := []
  startIndicesBatchingDims := []
  startIndexMap := [0]
  indexVectorDim := 1
  sliceSizes := ![1, 133]
  wf := gather_S100000x133_S400000x1_S400000x133_1_0_n_n_0_1_1133_wf
def dot_S5000x147_S147x300_S5000x300_1_0_0_1_n_n : DotDims S5000x147 S147x300 S5000x300 where
  lhsContracting := [1]
  rhsContracting := [0]
  lhsNonContracting := [0]
  rhsNonContracting := [1]
  lhsBatch := []
  rhsBatch := []
  wf := dot_S5000x147_S147x300_S5000x300_1_0_0_1_n_n_wf
def scatter_S100000x300_S400000x1_S400000x300_1_0_0_1 : ScatterDims S100000x300 S400000x1 S400000x300 where
  updateWindowDims := [1]
  insertedWindowDims := [0]
  scatterDimsToOperandDims := [0]
  indexVectorDim := 1
  wf := scatter_S100000x300_S400000x1_S400000x300_1_0_0_1_wf
def gather_S100000x300_S400000x1_S400000x300_1_0_n_n_0_1_1300 : GatherDims S100000x300 S400000x1 S400000x300 where
  offsetDims := [1]
  collapsedSliceDims := [0]
  operandBatchingDims := []
  startIndicesBatchingDims := []
  startIndexMap := [0]
  indexVectorDim := 1
  sliceSizes := ![1, 300]
  wf := gather_S100000x300_S400000x1_S400000x300_1_0_n_n_0_1_1300_wf
def dot_S4000x300_S300x300_S4000x300_1_0_0_1_n_n : DotDims S4000x300 S300x300 S4000x300 where
  lhsContracting := [1]
  rhsContracting := [0]
  lhsNonContracting := [0]
  rhsNonContracting := [1]
  lhsBatch := []
  rhsBatch := []
  wf := dot_S4000x300_S300x300_S4000x300_1_0_0_1_n_n_wf
def dot_S5000x433_S433x300_S5000x300_1_0_0_1_n_n : DotDims S5000x433 S433x300 S5000x300 where
  lhsContracting := [1]
  rhsContracting := [0]
  lhsNonContracting := [0]
  rhsNonContracting := [1]
  lhsBatch := []
  rhsBatch := []
  wf := dot_S5000x433_S433x300_S5000x300_1_0_0_1_n_n_wf
def scatter_S4096x300_S100000x1_S100000x300_1_0_0_1 : ScatterDims S4096x300 S100000x1 S100000x300 where
  updateWindowDims := [1]
  insertedWindowDims := [0]
  scatterDimsToOperandDims := [0]
  indexVectorDim := 1
  wf := scatter_S4096x300_S100000x1_S100000x300_1_0_0_1_wf
def dot_S4096x300_S300x300_S4096x300_1_0_0_1_n_n : DotDims S4096x300 S300x300 S4096x300 where
  lhsContracting := [1]
  rhsContracting := [0]
  lhsNonContracting := [0]
  rhsNonContracting := [1]
  lhsBatch := []
  rhsBatch := []
  wf := dot_S4096x300_S300x300_S4096x300_1_0_0_1_n_n_wf
def dot_S4096x300_S300x1_S4096x1_1_0_0_1_n_n : DotDims S4096x300 S300x1 S4096x1 where
  lhsContracting := [1]
  rhsContracting := [0]
  lhsNonContracting := [0]
  rhsNonContracting := [1]
  lhsBatch := []
  rhsBatch := []
  wf := dot_S4096x300_S300x1_S4096x1_1_0_0_1_n_n_wf

abbrev win0_0 : Pipeline.Window sig grid0 :=
  Pipeline.Window.ofSpec (Memref.whole main_v11) S5000x147.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S147x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x300.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v24) S4000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S4000x300.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S300x300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S4000x300.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v35) S4000x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S4000x300.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S300x300.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S4000x300.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v40) S5000x433.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S433x300.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x300.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S5000x300.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v46) S4096x300.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v47) S300x300.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v49) S1x300.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v48) S300x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v50) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v51) S4096x1.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x133 : Shape := ⟨2, ![100000, 133]⟩
abbrev S2x400000 : Shape := ⟨2, ![2, 400000]⟩
abbrev S400000x14 : Shape := ⟨2, ![400000, 14]⟩
abbrev S100000 : Shape := ⟨1, ![100000]⟩
abbrev S300x147 : Shape := ⟨2, ![300, 147]⟩
abbrev S300x300 : Shape := ⟨2, ![300, 300]⟩
abbrev S300x433 : Shape := ⟨2, ![300, 433]⟩
abbrev S300 : Shape := ⟨1, ![300]⟩
abbrev S1x300 : Shape := ⟨2, ![1, 300]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x133 : Shape := ⟨2, ![400000, 133]⟩
abbrev S400000x147 : Shape := ⟨2, ![400000, 147]⟩
abbrev S147x300 : Shape := ⟨2, ![147, 300]⟩
abbrev S400000x300 : Shape := ⟨2, ![400000, 300]⟩
abbrev S100000x300 : Shape := ⟨2, ![100000, 300]⟩
abbrev S100000x433 : Shape := ⟨2, ![100000, 433]⟩
abbrev S433x300 : Shape := ⟨2, ![433, 300]⟩
abbrev S4096x300 : Shape := ⟨2, ![4096, 300]⟩
abbrev S100000x1 : Shape := ⟨2, ![100000, 1]⟩
abbrev S300x1 : Shape := ⟨2, ![300, 1]⟩
abbrev S4096x1 : Shape := ⟨2, ![4096, 1]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S100000x133, .f32⟩
  | .hbm, ⟨1, _⟩ => ⟨S2x400000, .i32⟩
  | .hbm, ⟨2, _⟩ => ⟨S400000x14, .f32⟩
  | .hbm, ⟨3, _⟩ => ⟨S100000, .i32⟩
  | .hbm, ⟨4, _⟩ => ⟨S300x147, .f32⟩
  | .hbm, ⟨5, _⟩ => ⟨S300x300, .f32⟩
  | .hbm, ⟨6, _⟩ => ⟨S300x433, .f32⟩
  | .hbm, ⟨7, _⟩ => ⟨S300, .f32⟩
  | .hbm, ⟨8, _⟩ => ⟨S300x300, .f32⟩
  | .hbm, ⟨9, _⟩ => ⟨S300, .f32⟩
  | .hbm, ⟨10, _⟩ => ⟨S1x300, .f32⟩
  | .hbm, ⟨11, _⟩ => ⟨S1, .f32⟩
  | .hbm, ⟨12, _⟩ => ⟨S1x400000, .i32⟩
  | .hbm, ⟨13, _⟩ => ⟨S400000, .i32⟩
  | .hbm, ⟨14, _⟩ => ⟨S1x400000, .i32⟩
  | .hbm, ⟨15, _⟩ => ⟨S400000, .i32⟩
  | .hbm, ⟨16, _⟩ => ⟨S_, .i32⟩
  | .hbm, ⟨17, _⟩ => ⟨S400000, .i32⟩
  | .hbm, ⟨18, _⟩ => ⟨S400000, .i1⟩
  | .hbm, ⟨19, _⟩ => ⟨S_, .i32⟩
  | .hbm, ⟨20, _⟩ => ⟨S400000, .i32⟩
  | .hbm, ⟨21, _⟩ => ⟨S400000, .i32⟩
  | .hbm, ⟨22, _⟩ => ⟨S400000, .i32⟩
  | .hbm, ⟨23, _⟩ => ⟨S400000x1, .i32⟩
  | .hbm, ⟨24, _⟩ => ⟨S400000x133, .f32⟩
  | .hbm, ⟨25, _⟩ => ⟨S400000x147, .f32⟩
  | .hbm, ⟨26, _⟩ => ⟨S147x300, .f32⟩
  | .hbm, ⟨27, _⟩ => ⟨S400000x300, .f32⟩
  | .hbm, ⟨28, _⟩ => ⟨S_, .f32⟩
  | .hbm, ⟨29, _⟩ => ⟨S400000x300, .f32⟩
  | .hbm, ⟨30, _⟩ => ⟨S400000x300, .f32⟩
  | .hbm, ⟨31, _⟩ => ⟨S_, .f32⟩
  | .hbm, ⟨32, _⟩ => ⟨S100000x300, .f32⟩
  | .hbm, ⟨33, _⟩ => ⟨S400000x1, .i32⟩
  | .hbm, ⟨34, _⟩ => ⟨S100000x300, .f32⟩
  | .hbm, ⟨35, _⟩ => ⟨S_, .i32⟩
  | .hbm, ⟨36, _⟩ => ⟨S400000, .i32⟩
  | .hbm, ⟨37, _⟩ => ⟨S400000, .i1⟩
  | .hbm, ⟨38, _⟩ => ⟨S_, .i32⟩
  | .hbm, ⟨39, _⟩ => ⟨S400000, .i32⟩
  | .hbm, ⟨40, _⟩ => ⟨S400000, .i32⟩
  | .hbm, ⟨41, _⟩ => ⟨S400000, .i32⟩
  | .hbm, ⟨42, _⟩ => ⟨S400000x1, .i32⟩
  | .hbm, ⟨43, _⟩ => ⟨S400000x300, .f32⟩
  | .hbm, ⟨44, _⟩ => ⟨S300x300, .f32⟩
  | .hbm, ⟨45, _⟩ => ⟨S400000x300, .f32⟩
  | .hbm, ⟨46, _⟩ => ⟨S400000x300, .f32⟩
  | .hbm, ⟨47, _⟩ => ⟨S_, .f32⟩
  | .hbm, ⟨48, _⟩ => ⟨S400000x300, .f32⟩
  | .hbm, ⟨49, _⟩ => ⟨S400000x300, .f32⟩
  | .hbm, ⟨50, _⟩ => ⟨S_, .f32⟩
  | .hbm, ⟨51, _⟩ => ⟨S100000x300, .f32⟩
  | .hbm, ⟨52, _⟩ => ⟨S400000x1, .i32⟩
  | .hbm, ⟨53, _⟩ => ⟨S100000x300, .f32⟩
  | .hbm, ⟨54, _⟩ => ⟨S_, .i32⟩
  | .hbm, ⟨55, _⟩ => ⟨S400000, .i32⟩
  | .hbm, ⟨56, _⟩ => ⟨S400000, .i1⟩
  | .hbm, ⟨57, _⟩ => ⟨S_, .i32⟩
  | .hbm, ⟨58, _⟩ => ⟨S400000, .i32⟩
  | .hbm, ⟨59, _⟩ => ⟨S400000, .i32⟩
  | .hbm, ⟨60, _⟩ => ⟨S400000, .i32⟩
  | .hbm, ⟨61, _⟩ => ⟨S400000x1, .i32⟩
  | .hbm, ⟨62, _⟩ => ⟨S400000x300, .f32⟩
  | .hbm, ⟨63, _⟩ => ⟨S300x300, .f32⟩
  | .hbm, ⟨64, _⟩ => ⟨S400000x300, .f32⟩
  | .hbm, ⟨65, _⟩ => ⟨S400000x300, .f32⟩
  | .hbm, ⟨66, _⟩ => ⟨S_, .f32⟩
  | .hbm, ⟨67, _⟩ => ⟨S400000x300, .f32⟩
  | .hbm, ⟨68, _⟩ => ⟨S400000x300, .f32⟩
  | .hbm, ⟨69, _⟩ => ⟨S_, .f32⟩
  | .hbm, ⟨70, _⟩ => ⟨S100000x300, .f32⟩
  | .hbm, ⟨71, _⟩ => ⟨S400000x1, .i32⟩
  | .hbm, ⟨72, _⟩ => ⟨S100000x300, .f32⟩
  | .hbm, ⟨73, _⟩ => ⟨S100000x433, .f32⟩
  | .hbm, ⟨74, _⟩ => ⟨S433x300, .f32⟩
  | .hbm, ⟨75, _⟩ => ⟨S100000x300, .f32⟩
  | .hbm, ⟨76, _⟩ => ⟨S1x300, .f32⟩
  | .hbm, ⟨77, _⟩ => ⟨S100000x300, .f32⟩
  | .hbm, ⟨78, _⟩ => ⟨S100000x300, .f32⟩
  | .hbm, ⟨79, _⟩ => ⟨S_, .f32⟩
  | .hbm, ⟨80, _⟩ => ⟨S100000x300, .f32⟩
  | .hbm, ⟨81, _⟩ => ⟨S100000x300, .f32⟩
  | .hbm, ⟨82, _⟩ => ⟨S_, .f32⟩
  | .hbm, ⟨83, _⟩ => ⟨S4096x300, .f32⟩
  | .hbm, ⟨84, _⟩ => ⟨S100000x1, .i32⟩
  | .hbm, ⟨85, _⟩ => ⟨S4096x300, .f32⟩
  | .hbm, ⟨86, _⟩ => ⟨S300x300, .f32⟩
  | .hbm, ⟨87, _⟩ => ⟨S4096x300, .f32⟩
  | .hbm, ⟨88, _⟩ => ⟨S1x300, .f32⟩
  | .hbm, ⟨89, _⟩ => ⟨S4096x300, .f32⟩
  | .hbm, ⟨90, _⟩ => ⟨S4096x300, .f32⟩
  | .hbm, ⟨91, _⟩ => ⟨S_, .f32⟩
  | .hbm, ⟨92, _⟩ => ⟨S4096x300, .f32⟩
  | .hbm, ⟨93, _⟩ => ⟨S4096x300, .f32⟩
  | .hbm, ⟨94, _⟩ => ⟨S300x1, .f32⟩
  | .hbm, ⟨95, _⟩ => ⟨S4096x1, .f32⟩
  | .hbm, ⟨96, _⟩ => ⟨S1x1, .f32⟩
  | .hbm, ⟨97, _⟩ => ⟨S4096x1, .f32⟩
  | .hbm, ⟨98, _⟩ => ⟨S4096x1, .f32⟩
  | _, _ => ⟨S100000x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call0_cst : Ref sig .tc := ⟨.hbm, 28, rfl⟩
abbrev main_call0_v0 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_1 : Ref sig .tc := ⟨.hbm, 35, rfl⟩
abbrev main_v18 : Ref sig .tc := ⟨.hbm, 36, rfl⟩
abbrev main_v19 : Ref sig .tc := ⟨.hbm, 37, rfl⟩
abbrev main_c_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call1_cst : Ref sig .tc := ⟨.hbm, 47, rfl⟩
abbrev main_call1_v0 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_4 : Ref sig .tc := ⟨.hbm, 54, rfl⟩
abbrev main_v32 : Ref sig .tc := ⟨.hbm, 55, rfl⟩
abbrev main_v33 : Ref sig .tc := ⟨.hbm, 56, rfl⟩
abbrev main_c_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_call2_cst : Ref sig .tc := ⟨.hbm, 66, rfl⟩
abbrev main_call2_v0 : Ref sig .tc := ⟨.hbm, 67, rfl⟩
abbrev main_v42 : Ref sig .tc := ⟨.hbm, 68, rfl⟩
abbrev main_cst_6 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call3_cst : Ref sig .tc := ⟨.hbm, 79, rfl⟩
abbrev main_call3_v0 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_call4_cst : Ref sig .tc := ⟨.hbm, 91, rfl⟩
abbrev main_call4_v0 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  concatenates_S400000x133_S400000x14_S400000x147_d1 : Shape.Concatenates [S400000x133, S400000x14] S400000x147 1
  transposes_S300x147_S147x300_1_0 : S300x147.Transposes [1, 0] S147x300
  bcast_S_S400000x300 : S_.BroadcastsInDim S400000x300 (![] : Fin 0 → Fin S400000x300.rank)
  bcast_S_S100000x300 : S_.BroadcastsInDim S100000x300 (![] : Fin 0 → Fin S100000x300.rank)
  transposes_S300x300_S300x300_1_0 : S300x300.Transposes [1, 0] S300x300
  concatenates_S100000x133_S100000x300_S100000x433_d1 : Shape.Concatenates [S100000x133, S100000x300] S100000x433 1
  transposes_S300x433_S433x300_1_0 : S300x433.Transposes [1, 0] S433x300
  bcast_S300_S1x300_1 : S300.BroadcastsInDim S1x300 (![1] : Fin 1 → Fin S1x300.rank)
  bcast_S1x300_S100000x300_0_1 : S1x300.BroadcastsInDim S100000x300 (![0, 1] : Fin 2 → Fin S100000x300.rank)
  bcast_S_S4096x300 : S_.BroadcastsInDim S4096x300 (![] : Fin 0 → Fin S4096x300.rank)
  bcast_S100000_S100000x1_0 : S100000.BroadcastsInDim S100000x1 (![0] : Fin 1 → Fin S100000x1.rank)
  bcast_S1x300_S4096x300_0_1 : S1x300.BroadcastsInDim S4096x300 (![0, 1] : Fin 2 → Fin S4096x300.rank)
  transposes_S1x300_S300x1_1_0 : S1x300.Transposes [1, 0] S300x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  gather_S100000x133_S400000x1_S400000x133_1_0_n_n_0_1_1133_wf : GatherDims.WF S100000x133 S400000x1 S400000x133 [1] [0] [] [0] [] 1 ![1, 133]
  dot_S400000x147_S147x300_S400000x300_1_0_0_1_n_n_wf : DotDims.WF S400000x147 S147x300 S400000x300 [1] [0] [0] [1] [] []
  scatter_S100000x300_S400000x1_S400000x300_1_0_0_1_wf : ScatterDims.WF S100000x300 S400000x1 S400000x300 [1] [0] [0] 1
  gather_S100000x300_S400000x1_S400000x300_1_0_n_n_0_1_1300_wf : GatherDims.WF S100000x300 S400000x1 S400000x300 [1] [0] [] [0] [] 1 ![1, 300]
  dot_S400000x300_S300x300_S400000x300_1_0_0_1_n_n_wf : DotDims.WF S400000x300 S300x300 S400000x300 [1] [0] [0] [1] [] []
  dot_S100000x433_S433x300_S100000x300_1_0_0_1_n_n_wf : DotDims.WF S100000x433 S433x300 S100000x300 [1] [0] [0] [1] [] []
  scatter_S4096x300_S100000x1_S100000x300_1_0_0_1_wf : ScatterDims.WF S4096x300 S100000x1 S100000x300 [1] [0] [0] 1
  dot_S4096x300_S300x300_S4096x300_1_0_0_1_n_n_wf : DotDims.WF S4096x300 S300x300 S4096x300 [1] [0] [0] [1] [] []
  dot_S4096x300_S300x1_S4096x1_1_0_0_1_n_n_wf : DotDims.WF S4096x300 S300x1 S4096x1 [1] [0] [0] [1] [] []

variable [Facts₀]

def gather_S100000x133_S400000x1_S400000x133_1_0_n_n_0_1_1133 : GatherDims S100000x133 S400000x1 S400000x133 where
  offsetDims := [1]
  collapsedSliceDims := [0]
  operandBatchingDims := []
  startIndicesBatchingDims := []
  startIndexMap := [0]
  indexVectorDim := 1
  sliceSizes := ![1, 133]
  wf := gather_S100000x133_S400000x1_S400000x133_1_0_n_n_0_1_1133_wf
def dot_S400000x147_S147x300_S400000x300_1_0_0_1_n_n : DotDims S400000x147 S147x300 S400000x300 where
  lhsContracting := [1]
  rhsContracting := [0]
  lhsNonContracting := [0]
  rhsNonContracting := [1]
  lhsBatch := []
  rhsBatch := []
  wf := dot_S400000x147_S147x300_S400000x300_1_0_0_1_n_n_wf
def scatter_S100000x300_S400000x1_S400000x300_1_0_0_1 : ScatterDims S100000x300 S400000x1 S400000x300 where
  updateWindowDims := [1]
  insertedWindowDims := [0]
  scatterDimsToOperandDims := [0]
  indexVectorDim := 1
  wf := scatter_S100000x300_S400000x1_S400000x300_1_0_0_1_wf
def gather_S100000x300_S400000x1_S400000x300_1_0_n_n_0_1_1300 : GatherDims S100000x300 S400000x1 S400000x300 where
  offsetDims := [1]
  collapsedSliceDims := [0]
  operandBatchingDims := []
  startIndicesBatchingDims := []
  startIndexMap := [0]
  indexVectorDim := 1
  sliceSizes := ![1, 300]
  wf := gather_S100000x300_S400000x1_S400000x300_1_0_n_n_0_1_1300_wf
def dot_S400000x300_S300x300_S400000x300_1_0_0_1_n_n : DotDims S400000x300 S300x300 S400000x300 where
  lhsContracting := [1]
  rhsContracting := [0]
  lhsNonContracting := [0]
  rhsNonContracting := [1]
  lhsBatch := []
  rhsBatch := []
  wf := dot_S400000x300_S300x300_S400000x300_1_0_0_1_n_n_wf
def dot_S100000x433_S433x300_S100000x300_1_0_0_1_n_n : DotDims S100000x433 S433x300 S100000x300 where
  lhsContracting := [1]
  rhsContracting := [0]
  lhsNonContracting := [0]
  rhsNonContracting := [1]
  lhsBatch := []
  rhsBatch := []
  wf := dot_S100000x433_S433x300_S100000x300_1_0_0_1_n_n_wf
def scatter_S4096x300_S100000x1_S100000x300_1_0_0_1 : ScatterDims S4096x300 S100000x1 S100000x300 where
  updateWindowDims := [1]
  insertedWindowDims := [0]
  scatterDimsToOperandDims := [0]
  indexVectorDim := 1
  wf := scatter_S4096x300_S100000x1_S100000x300_1_0_0_1_wf
def dot_S4096x300_S300x300_S4096x300_1_0_0_1_n_n : DotDims S4096x300 S300x300 S4096x300 where
  lhsContracting := [1]
  rhsContracting := [0]
  lhsNonContracting := [0]
  rhsNonContracting := [1]
  lhsBatch := []
  rhsBatch := []
  wf := dot_S4096x300_S300x300_S4096x300_1_0_0_1_n_n_wf
def dot_S4096x300_S300x1_S4096x1_1_0_0_1_n_n : DotDims S4096x300 S300x1 S4096x1 where
  lhsContracting := [1]
  rhsContracting := [0]
  lhsNonContracting := [0]
  rhsNonContracting := [1]
  lhsBatch := []
  rhsBatch := []
  wf := dot_S4096x300_S300x1_S4096x1_1_0_0_1_n_n_wf

class Facts : Prop extends Facts₀ where

variable [Facts]
-- ==== Proof.RunValue.lean ====
/-
  The idealized kernel's run with its result named. From any memory with zero counters every weakly fair execution of
  @main terminates, and on each core the result buffer (the last launch's output array) ends at the contents the fold
  through @main's ten segments gives it at the last boundary, the twelve argument arrays ending as launched. The
  launch theorem over the program's segments reads every unscoped buffer of the final state against the last
  boundary's contents; the frame claim keeps only the arguments out of that, here the result buffer is kept too.
-/
import proofs.«156353_j65558380806593_1_alg».proof.Proof.KernelIdealFramePatched

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the arguments
    as launched. -/
theorem run_result : θ_run defs (onTc (τ := τ) (main (F := F))) ⟨m, fun _ => 0, ρ⟩ (fun r => ∀ c : Dev nD,
      r.2.mem ((c.tc : Thread nD τ).loc main_v51) = W10 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v51 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩)

end Cert.KernelIdeal.RunValue

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibMatRows.lean ====
/-
  A plain matrix product of an `[a, k]` array with a `[k, n]` array, contracted over the shared axis of extent `k`, read
  at the result's entry `(p, c)` at the ideal values: the sum over `j : Fin k` of `lhs (p, j) * rhs (j, c)` — for the
  kernel's `tpu.matmul` into the zero accumulator and for the host's `dot_general` alike.

  It holds for ANY dimension record between those three shapes that says what a plain product says (`RowsTimesMat`): one
  contracted axis of extent `k`; the left operand read at the result's row and the contracted coordinate; the right operand
  at the contracted coordinate and the result's column. For a printed record the six facts are `rfl`, `rfl`,
  `DotDims.lhsIdx_val_of_single rfl` / `rhsIdx_val_of_single rfl` on the contracted axes, and two `dif` rewrites (not a
  batch axis, a kept axis) on the kept ones.
-/
import proofs.«156353_j65558380806593_1_alg».proof.Proof.LibContract1
import Idealize.ShloMosaic.PureOps.Ideal.Laws
import Idealize.ShloMosaic.Lib.ValueIdx

noncomputable section

namespace Cert.LibMatRows

open Idealize.ShloMosaic Idealize.ShloMosaic.ValueIdx

/-- What a dimension record between `[a, k]`, `[k, n]` and `[a, n]` must say to be a plain product. -/
structure RowsTimesMat {a k n : ℕ} (d : DotDims ⟨2, ![a, k]⟩ ⟨2, ![k, n]⟩ ⟨2, ![a, n]⟩) : Prop where
  rank : d.contr.rank = 1
  size : d.contr.size ⟨0, by omega⟩ = k
  l0 : ∀ (i : (⟨2, ![a, n]⟩ : Shape).Idx) (q : d.contr.Idx), (d.lhsIdx i q 0).val = (i 0).val
  l1 : ∀ (i : (⟨2, ![a, n]⟩ : Shape).Idx) (q : d.contr.Idx), (d.lhsIdx i q 1).val = (q ⟨0, by omega⟩).val
  r0 : ∀ (i : (⟨2, ![a, n]⟩ : Shape).Idx) (q : d.contr.Idx), (d.rhsIdx i q 0).val = (q ⟨0, by omega⟩).val
  r1 : ∀ (i : (⟨2, ![a, n]⟩ : Shape).Idx) (q : d.contr.Idx), (d.rhsIdx i q 1).val = (i 1).val

variable {a k n : ℕ} {d : DotDims ⟨2, ![a, k]⟩ ⟨2, ![k, n]⟩ ⟨2, ![a, n]⟩}

/-- The left operand's index at result entry `(p, c)` and contracted coordinate `j` is `(p, j)`. -/
theorem RowsTimesMat.lhsIdx_eq (hd : RowsTimesMat d) (p : Fin a) (c : Fin n) (j : Fin k) :
    d.lhsIdx (ix2 p c) ((contrEquiv1 d k hd.rank hd.size).symm j) = ix2 p j :=
  funext fun ax => Fin.ext (by
    match ax with
    | ⟨0, _⟩ => exact hd.l0 _ _
    | ⟨1, _⟩ => exact (hd.l1 _ _).trans (contrEquiv1_symm_val d k hd.rank hd.size j))

/-- The right operand's index at result entry `(p, c)` and contracted coordinate `j` is `(j, c)`. -/
theorem RowsTimesMat.rhsIdx_eq (hd : RowsTimesMat d) (p : Fin a) (c : Fin n) (j : Fin k) :
    d.rhsIdx (ix2 p c) ((contrEquiv1 d k hd.rank hd.size).symm j) = ix2 j c :=
  funext fun ax => Fin.ext (by
    match ax with
    | ⟨0, _⟩ => exact (hd.r0 _ _).trans (contrEquiv1_symm_val d k hd.rank hd.size j)
    | ⟨1, _⟩ => exact hd.r1 _ _)

/-- The kernel's product into the zero accumulator at `(p, c)`. -/
theorem matmul_rows {φ₁ φ₂ : FTy} (hd : RowsTimesMat d) (lhs : FVec Ideal ⟨2, ![a, k]⟩ φ₁) (rhs : FVec Ideal ⟨2, ![k, n]⟩ φ₂)
    (p : Fin a) (c : Fin n) :
    matmul d none lhs rhs (constant (F := Ideal) ⟨2, ![a, n]⟩ .f32 0x00000000#32) (ix2 p c) = ∑ j : Fin k, lhs (ix2 p j) * rhs (ix2 j c) :=
  LibContract1.matmul_zero_single d k hd.rank hd.size lhs rhs (ix2 p c) (fun j => ix2 p j) (fun j => ix2 j c)
    (hd.lhsIdx_eq p c) (hd.rhsIdx_eq p c)

/-- The host's product at `(p, c)`. -/
theorem dotGeneral_rows {φ₁ φ₂ : FTy} (hd : RowsTimesMat d) (lhs : FVec Ideal ⟨2, ![a, k]⟩ φ₁) (rhs : FVec Ideal ⟨2, ![k, n]⟩ φ₂)
    (p : Fin a) (c : Fin n) :
    Host.dotGeneral d none lhs rhs (ix2 p c) = ∑ j : Fin k, lhs (ix2 p j) * rhs (ix2 j c) :=
  LibContract1.dotGeneral_single d k hd.rank hd.size lhs rhs (ix2 p c) (fun j => ix2 p j) (fun j => ix2 j c)
    (hd.lhsIdx_eq p c) (hd.rhsIdx_eq p c)

end Cert.LibMatRows

end
-- ==== Proof.LibHostBroadcast.lean ====
/-
  The host's `broadcast_in_dim` in its four keepdims forms, read at an entry: a vector `[a]` as a column `[a, 1]`, a
  column `[a, 1]` spread over `b` lanes, a vector `[c]` as a row `[1, c]`, and a row `[1, c]` spread down `a` rows.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- A vector `[a]` broadcast along axis 0 to the column `[a, 1]` reads, at `(i, u)`, the vector at `i`. -/
theorem vec_to_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) :=
  broadcastInDim_apply _ h x (ix2 i u) (ix1 i) fun ax => by
    match ax with
    | ⟨0, _⟩ =>
      show i.val = if a = 1 then 0 else i.val
      split
      · have := i.isLt; omega
      · rfl

/-- A column `[a, 1]` broadcast to `[a, b]` reads, at `(i, j)`, the column at `(i, 0)`. -/
theorem col_to_mat_apply {a b : ℕ} (x : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 i (0 : Fin 1)) :=
  broadcastInDim_apply _ h x (ix2 i j) (ix2 i (0 : Fin 1)) fun ax => by
    match ax with
    | ⟨0, _⟩ =>
      show i.val = if a = 1 then 0 else i.val
      split
      · have := i.isLt; omega
      · rfl
    | ⟨1, _⟩ =>
      show 0 = if (1 : ℕ) = 1 then 0 else j.val
      rw [if_pos rfl]

/-- A vector `[c]` broadcast along axis 1 to the row `[1, c]` reads, at `(u, j)`, the vector at `j`. -/
theorem vec_to_row_apply {c : ℕ} (x : (⟨1, ![c]⟩ : Shape).Idx → α)
    (h : (⟨1, ![c]⟩ : Shape).BroadcastsInDim ⟨2, ![1, c]⟩ (![1] : Fin 1 → Fin 2)) (u : Fin 1) (j : Fin c) :
    broadcastInDim ⟨2, ![1, c]⟩ (![1] : Fin 1 → Fin 2) h x (ix2 u j) = x (ix1 j) :=
  broadcastInDim_apply _ h x (ix2 u j) (ix1 j) fun ax => by
    match ax with
    | ⟨0, _⟩ =>
      show j.val = if c = 1 then 0 else j.val
      split
      · have := j.isLt; omega
      · rfl

/-- A row `[1, c]` broadcast to `[a, c]` reads, at `(i, j)`, the row at `(0, j)`. -/
theorem row_to_mat_apply {a c : ℕ} (x : (⟨2, ![1, c]⟩ : Shape).Idx → α)
    (h : (⟨2, ![1, c]⟩ : Shape).BroadcastsInDim ⟨2, ![a, c]⟩ (![0, 1] : Fin 2 → Fin 2)) (i : Fin a) (j : Fin c) :
    broadcastInDim ⟨2, ![a, c]⟩ (![0, 1] : Fin 2 → Fin 2) h x (ix2 i j) = x (ix2 (0 : Fin 1) j) :=
  broadcastInDim_apply _ h x (ix2 i j) (ix2 (0 : Fin 1) j) fun ax => by
    match ax with
    | ⟨0, _⟩ =>
      show 0 = if (1 : ℕ) = 1 then 0 else i.val
      rw [if_pos rfl]
    | ⟨1, _⟩ =>
      show j.val = if c = 1 then 0 else j.val
      split
      · have := j.isLt; omega
      · rfl

end Cert.LibHostBroadcast

end
-- ==== Proof.LibDenseLayers.lean ====
/-
  Dense layers as functions of whole arrays over the extended reals, for any extents, and how a kernel and a host program
  each compute an entry: general lemmas.

  `dense x w b` is `x · w + b`: entry (p, q) is the sum over j of x(p, j) · w(j, q), plus the bias row's entry q.
  `dense2 x₁ x₂ w b` multiplies the rows of `w` below `k₁` with `x₁` and the rows from `k₁` on with `x₂`:
  entry (p, q) is  Σ_{j<k₁} x₁(p, j) · w(j, q)  +  Σ_{j<k₂} x₂(p, j) · w(k₁ + j, q),  plus the bias.
  The kernel computes exactly these (two matrix products into zero accumulators, on the two row ranges of the weight
  block, then the broadcast bias row). The reference concatenates `x₁` and `x₂` along the columns and takes ONE product
  over all k₁ + k₂ columns: a sum over `Fin (k₁ + k₂)` splits into its first k₁ and last k₂ terms — additivity of a
  finite sum over a disjoint union, which holds in any commutative monoid, so no finiteness of the entries is needed.
-/
import proofs.«156353_j65558380806593_1_alg».proof.Proof.LibMatRows
import proofs.«156353_j65558380806593_1_alg».proof.Proof.LibHostBroadcast
import Idealize.ShloMosaic.Lib.ValueLayout
import Idealize.ShloMosaic.Lib.Pipeline.Value
import Idealize.ShloMosaic.Lib.ValueIdx
import Idealize.ShloMosaic.PureOps.Ideal.Laws

noncomputable section

namespace Cert.LibDenseLayers

open Idealize.ShloMosaic Idealize.ShloMosaic.ValueIdx Cert.LibMatRows Cert.LibHostBroadcast

variable {a k k1 k2 n : ℕ}

/-! ## The layers -/

/-- Entry (p, q) of `x · w + b`. -/
def denseAt (x : (⟨2, ![a, k]⟩ : Shape).Idx → EReal) (w : (⟨2, ![k, n]⟩ : Shape).Idx → EReal)
    (b : (⟨2, ![1, n]⟩ : Shape).Idx → EReal) (p : Fin a) (q : Fin n) : EReal :=
  (∑ j : Fin k, x (ix2 p j) * w (ix2 j q)) + b (ix2 (0 : Fin 1) q)

/-- `x · w + b` as one array. -/
def dense (x : (⟨2, ![a, k]⟩ : Shape).Idx → EReal) (w : (⟨2, ![k, n]⟩ : Shape).Idx → EReal)
    (b : (⟨2, ![1, n]⟩ : Shape).Idx → EReal) : (⟨2, ![a, n]⟩ : Shape).Idx → EReal :=
  fun i => denseAt x w b (i 0) (i 1)

/-- Entry (p, q) of `x₁ · w[0:k₁] + x₂ · w[k₁:k] + b`. -/
def dense2At (hk : k1 + k2 = k) (x1 : (⟨2, ![a, k1]⟩ : Shape).Idx → EReal) (x2 : (⟨2, ![a, k2]⟩ : Shape).Idx → EReal)
    (w : (⟨2, ![k, n]⟩ : Shape).Idx → EReal) (b : (⟨2, ![1, n]⟩ : Shape).Idx → EReal) (p : Fin a) (q : Fin n) : EReal :=
  ((∑ j : Fin k1, x1 (ix2 p j) * w (ix2 (⟨j.val, by have := j.isLt; omega⟩ : Fin k) q))
    + (∑ j : Fin k2, x2 (ix2 p j) * w (ix2 (⟨k1 + j.val, by have := j.isLt; omega⟩ : Fin k) q)))
    + b (ix2 (0 : Fin 1) q)

/-- `x₁ · w[0:k₁] + x₂ · w[k₁:k] + b` as one array. -/
def dense2 (hk : k1 + k2 = k) (x1 : (⟨2, ![a, k1]⟩ : Shape).Idx → EReal) (x2 : (⟨2, ![a, k2]⟩ : Shape).Idx → EReal)
    (w : (⟨2, ![k, n]⟩ : Shape).Idx → EReal) (b : (⟨2, ![1, n]⟩ : Shape).Idx → EReal) : (⟨2, ![a, n]⟩ : Shape).Idx → EReal :=
  fun i => dense2At hk x1 x2 w b (i 0) (i 1)

/-- Two entries of two dense layers agree when the rows, the columns and the bias entries they read agree. -/
theorem denseAt_congr {a' n' : ℕ} {x : (⟨2, ![a, k]⟩ : Shape).Idx → EReal} {w : (⟨2, ![k, n]⟩ : Shape).Idx → EReal}
    {b : (⟨2, ![1, n]⟩ : Shape).Idx → EReal} {x' : (⟨2, ![a', k]⟩ : Shape).Idx → EReal} {w' : (⟨2, ![k, n']⟩ : Shape).Idx → EReal}
    {b' : (⟨2, ![1, n']⟩ : Shape).Idx → EReal} {p : Fin a} {q : Fin n} {p' : Fin a'} {q' : Fin n'}
    (hx : ∀ j : Fin k, x (ix2 p j) = x' (ix2 p' j)) (hw : ∀ j : Fin k, w (ix2 j q) = w' (ix2 j q'))
    (hb : b (ix2 (0 : Fin 1) q) = b' (ix2 (0 : Fin 1) q')) : denseAt x w b p q = denseAt x' w' b' p' q' := by
  unfold denseAt
  rw [hb]
  exact congrArg (· + _) (Finset.sum_congr rfl fun j _ => by rw [hx j, hw j])

/-- The same for a split layer; the weight block may be a window of `K'` rows' worth of a larger array. -/
theorem dense2At_congr {a' n' : ℕ} (hk : k1 + k2 = k) {x1 : (⟨2, ![a, k1]⟩ : Shape).Idx → EReal} {x2 : (⟨2, ![a, k2]⟩ : Shape).Idx → EReal}
    {w : (⟨2, ![k, n]⟩ : Shape).Idx → EReal} {b : (⟨2, ![1, n]⟩ : Shape).Idx → EReal}
    {x1' : (⟨2, ![a', k1]⟩ : Shape).Idx → EReal} {x2' : (⟨2, ![a', k2]⟩ : Shape).Idx → EReal}
    {w' : (⟨2, ![k, n']⟩ : Shape).Idx → EReal} {b' : (⟨2, ![1, n']⟩ : Shape).Idx → EReal}
    {p : Fin a} {q : Fin n} {p' : Fin a'} {q' : Fin n'}
    (hx1 : ∀ j : Fin k1, x1 (ix2 p j) = x1' (ix2 p' j)) (hx2 : ∀ j : Fin k2, x2 (ix2 p j) = x2' (ix2 p' j))
    (hw : ∀ j : Fin k, w (ix2 j q) = w' (ix2 j q'))
    (hb : b (ix2 (0 : Fin 1) q) = b' (ix2 (0 : Fin 1) q')) : dense2At hk x1 x2 w b p q = dense2At hk x1' x2' w' b' p' q' := by
  unfold dense2At
  rw [hb]
  refine congrArg (· + _) (congrArg₂ (· + ·) (Finset.sum_congr rfl fun j _ => ?_) (Finset.sum_congr rfl fun j _ => ?_))
  · rw [hx1 j, hw]
  · rw [hx2 j, hw]

/-! ## What the kernel computes at an entry -/

/-- A product into the zero accumulator plus the broadcast bias row, at (p, q). -/
theorem kernel_dense {d : DotDims ⟨2, ![a, k]⟩ ⟨2, ![k, n]⟩ ⟨2, ![a, n]⟩} (hd : RowsTimesMat d)
    (x : FVec Ideal ⟨2, ![a, k]⟩ .bf16) (w : FVec Ideal ⟨2, ![k, n]⟩ .bf16) (b : FVec Ideal ⟨2, ![1, n]⟩ .f32)
    (hb : (⟨2, ![1, n]⟩ : Shape).Broadcasts ⟨2, ![a, n]⟩) (p : Fin a) (q : Fin n) :
    addf (matmul d none x w (constant (F := Ideal) ⟨2, ![a, n]⟩ .f32 0x00000000#32)) (broadcastTo ⟨2, ![a, n]⟩ b hb) (ix2 p q)
      = denseAt x w b p q :=
  congrArg₂ (· + ·) (matmul_rows hd x w p q) (broadcastTo_1b_ab_apply b hb p q)

/-- Two products into zero accumulators, on the rows of the weight block below `k₁` and from `k₁` on, added, plus the
    broadcast bias row, at (p, q). -/
theorem kernel_dense2 (hk : k1 + k2 = k) {d1 : DotDims ⟨2, ![a, k1]⟩ ⟨2, ![k1, n]⟩ ⟨2, ![a, n]⟩} (hd1 : RowsTimesMat d1)
    {d2 : DotDims ⟨2, ![a, k2]⟩ ⟨2, ![k2, n]⟩ ⟨2, ![a, n]⟩} (hd2 : RowsTimesMat d2)
    (x1 : FVec Ideal ⟨2, ![a, k1]⟩ .bf16) (x2 : FVec Ideal ⟨2, ![a, k2]⟩ .bf16) (w : FVec Ideal ⟨2, ![k, n]⟩ .bf16)
    (b : FVec Ideal ⟨2, ![1, n]⟩ .f32)
    (h1 : (⟨2, ![k, n]⟩ : Shape).Slices ![0, 0] ⟨2, ![k1, n]⟩) (h2 : (⟨2, ![k, n]⟩ : Shape).Slices ![k1, 0] ⟨2, ![k2, n]⟩)
    (hb : (⟨2, ![1, n]⟩ : Shape).Broadcasts ⟨2, ![a, n]⟩) (p : Fin a) (q : Fin n) :
    addf (addf (matmul d1 none x1 (extractStridedSlice ⟨2, ![k1, n]⟩ ![0, 0] w h1) (constant (F := Ideal) ⟨2, ![a, n]⟩ .f32 0x00000000#32))
        (matmul d2 none x2 (extractStridedSlice ⟨2, ![k2, n]⟩ ![k1, 0] w h2) (constant (F := Ideal) ⟨2, ![a, n]⟩ .f32 0x00000000#32)))
      (broadcastTo ⟨2, ![a, n]⟩ b hb) (ix2 p q)
      = dense2At hk x1 x2 w b p q := by
  refine congrArg₂ (· + ·) (congrArg₂ (· + ·) ((matmul_rows hd1 x1 _ p q).trans ?_) ((matmul_rows hd2 x2 _ p q).trans ?_))
    (broadcastTo_1b_ab_apply b hb p q)
  · exact Finset.sum_congr rfl fun j _ => congrArg (x1 (ix2 p j) * ·)
      (slice2_axis0_apply 0 w h1 j q ⟨j.val, by have := j.isLt; omega⟩ (Nat.zero_add _).symm)
  · exact Finset.sum_congr rfl fun j _ => congrArg (x2 (ix2 p j) * ·)
      (slice2_axis0_apply k1 w h2 j q ⟨k1 + j.val, by have := j.isLt; omega⟩ rfl)

/-! ## What the reference computes at an entry -/

/-- The host's product plus the bias vector spread as a row and then down the rows, at (p, q). -/
theorem ref_dense {d : DotDims ⟨2, ![a, k]⟩ ⟨2, ![k, n]⟩ ⟨2, ![a, n]⟩} (hd : RowsTimesMat d)
    (x : FVec Ideal ⟨2, ![a, k]⟩ .f32) (w : FVec Ideal ⟨2, ![k, n]⟩ .f32) (b : FVec Ideal ⟨2, ![1, n]⟩ .f32)
    (h2 : (⟨2, ![1, n]⟩ : Shape).BroadcastsInDim ⟨2, ![a, n]⟩ (![0, 1] : Fin 2 → Fin 2)) (p : Fin a) (q : Fin n) :
    addf (Host.dotGeneral d none x w) (broadcastInDim ⟨2, ![a, n]⟩ (![0, 1] : Fin 2 → Fin 2) h2 b) (ix2 p q) = denseAt x w b p q :=
  congrArg₂ (· + ·) (dotGeneral_rows hd x w p q) (row_to_mat_apply b h2 p q)

/-- A sum over the first `k₁ + k₂` naturals splits into its first `k₁` and its last `k₂` terms. -/
theorem sum_split (hk : k1 + k2 = k) (f : Fin k → EReal) :
    ∑ j : Fin k, f j = (∑ j : Fin k1, f ⟨j.val, by have := j.isLt; omega⟩) + ∑ j : Fin k2, f ⟨k1 + j.val, by have := j.isLt; omega⟩ := by
  subst hk
  exact Fin.sum_univ_add f

/-- The host's ONE product over the concatenation of `x₁` and `x₂` along the columns, plus the bias, at (p, q): the
    split layer's entry. -/
theorem ref_dense2 (hk : k1 + k2 = k) {d : DotDims ⟨2, ![a, k]⟩ ⟨2, ![k, n]⟩ ⟨2, ![a, n]⟩} (hd : RowsTimesMat d)
    (x1 : FVec Ideal ⟨2, ![a, k1]⟩ .f32) (x2 : FVec Ideal ⟨2, ![a, k2]⟩ .f32) (w : FVec Ideal ⟨2, ![k, n]⟩ .f32)
    (b : FVec Ideal ⟨2, ![1, n]⟩ .f32)
    (hc : Shape.Concatenates [(⟨2, ![a, k1]⟩ : Shape), ⟨2, ![a, k2]⟩] ⟨2, ![a, k]⟩ 1)
    (h2 : (⟨2, ![1, n]⟩ : Shape).BroadcastsInDim ⟨2, ![a, n]⟩ (![0, 1] : Fin 2 → Fin 2)) (p : Fin a) (q : Fin n) :
    addf (Host.dotGeneral d none (concatenate ⟨2, ![a, k]⟩ 1 [⟨⟨2, ![a, k1]⟩, x1⟩, ⟨⟨2, ![a, k2]⟩, x2⟩] hc) w)
      (broadcastInDim ⟨2, ![a, n]⟩ (![0, 1] : Fin 2 → Fin 2) h2 b) (ix2 p q) = dense2At hk x1 x2 w b p q := by
  refine congrArg₂ (· + ·) ((dotGeneral_rows hd _ w p q).trans ((sum_split hk _).trans ?_)) (row_to_mat_apply b h2 p q)
  refine congrArg₂ (· + ·) (Finset.sum_congr rfl fun j _ => congrArg (· * _) ?_) (Finset.sum_congr rfl fun j _ => congrArg (· * _) ?_)
  · refine concatenate_pair_apply_left (t := ⟨2, ![a, k]⟩) (1 : Fin 2) x1 x2 hc _ rfl (ix2 p j) fun ax => ?_
    match ax with
    | ⟨0, _⟩ => rfl
    | ⟨1, _⟩ => rfl
  · refine concatenate_pair_apply_right (t := ⟨2, ![a, k]⟩) (1 : Fin 2) x1 x2 hc _ rfl rfl (ix2 p j) (fun ax hax => ?_) ?_
    · match ax with
      | ⟨0, _⟩ => rfl
      | ⟨1, _⟩ => exact absurd rfl hax
    · show j.val + k1 = k1 + j.val
      omega

/-- The bias vector spread as a row is the bias vector reshaped to a row. -/
theorem bias_row_eq (bv : (⟨1, ![n]⟩ : Shape).Idx → EReal)
    (h1 : (⟨1, ![n]⟩ : Shape).BroadcastsInDim ⟨2, ![1, n]⟩ (![1] : Fin 1 → Fin 2))
    (hs : (⟨1, ![n]⟩ : Shape).ShapeCasts ⟨2, ![1, n]⟩) :
    broadcastInDim ⟨2, ![1, n]⟩ (![1] : Fin 1 → Fin 2) h1 bv = shapeCast ⟨2, ![1, n]⟩ bv hs := by
  funext i
  rw [eq_ix2 i]
  exact (vec_to_row_apply bv h1 _ _).trans (shapeCast_a_1a_apply bv hs _ _).symm

end Cert.LibDenseLayers

end
-- ==== Proof.LibPlainRecord.lean ====
/-
  A dimension record between `[a, k]`, `[k, n]` and `[a, n]` whose six lists are those of a plain matrix product
  (contract the left operand's axis 1 with the right operand's axis 0, keep the left operand's axis 0 and the right
  operand's axis 1, no batch axis) says what a plain product says: one contracted axis of extent `k`, the left operand
  read at (the result's row, the contracted coordinate), the right operand at (the contracted coordinate, the result's
  column). A literal record discharges the six list equations by `rfl`.
-/
import proofs.«156353_j65558380806593_1_alg».proof.Proof.LibMatRows

noncomputable section

namespace Cert.LibPlainRecord

open Idealize.ShloMosaic Idealize.ShloMosaic.ValueIdx Cert.LibMatRows

variable {a k n : ℕ} (d : DotDims ⟨2, ![a, k]⟩ ⟨2, ![k, n]⟩ ⟨2, ![a, n]⟩)

/-- A coordinate of an index read at two spellings of one position. -/
theorem coord_val_congr {s : Shape} (i : s.Idx) (p q : ℕ) (hp : p < s.rank) (hq : q < s.rank) (h : p = q) :
    (i ⟨p, hp⟩).val = (i ⟨q, hq⟩).val := by
  subst h; rfl

/-- A record with a plain product's six lists is a plain product: the contraction shape is the one axis of extent `k`;
    on the kept axes the operand index reads the result index (no batch axis comes before them), on the contracted
    axes the contraction index. -/
theorem rowsTimesMat_of_lists (h1 : d.lhsContracting = [1]) (h2 : d.rhsContracting = [0]) (h3 : d.lhsNonContracting = [0])
    (h4 : d.rhsNonContracting = [1]) (h5 : d.lhsBatch = []) (h6 : d.rhsBatch = []) : RowsTimesMat d where
  rank := d.rank_contr.trans (by rw [h1]; rfl)
  size := by
    have hp : 0 < d.lhsContracting.length := by rw [h1]; exact Nat.one_pos
    rw [d.size_contr 0 hp, List.getElem_of_eq h1 hp]
    rfl
  l0 := fun i q => by
    have hb : (0 : Fin 2) ∉ d.lhsBatch := by rw [h5]; exact List.not_mem_nil
    have hn : (0 : Fin 2) ∈ d.lhsNonContracting := by rw [h3]; exact List.mem_singleton.mpr rfl
    unfold DotDims.lhsIdx
    rw [dif_neg hb, dif_pos hn]
    simp only [Fin.val_cast]
    exact coord_val_congr i _ _ _ _ (by rw [h5, h3]; rfl)
  l1 := fun i q => d.lhsIdx_val_of_single h1 i q
  r0 := fun i q => d.rhsIdx_val_of_single h2 i q
  r1 := fun i q => by
    have hb : (1 : Fin 2) ∉ d.rhsBatch := by rw [h6]; exact List.not_mem_nil
    have hn : (1 : Fin 2) ∈ d.rhsNonContracting := by rw [h4]; exact List.mem_singleton.mpr rfl
    unfold DotDims.rhsIdx
    rw [dif_neg hb, dif_pos hn]
    simp only [Fin.val_cast]
    exact coord_val_congr i _ _ _ _ (by rw [h5, h3, h4]; rfl)

end Cert.LibPlainRecord

end
-- ==== Proof.LibReluLayers.lean ====
/-
  The four kinds of layer this network is made of, as functions of whole arrays over the extended reals, for any
  extents, and how a kernel body and a host program each compute one entry of them.

  Write  x·w  for the matrix product, entry (p, q) being the sum over j of x(p, j) · w(j, q), and  relu v = max v 0
  with 0 the value of the f32 zero word.
    * reluLin x w         = relu (x·w)
    * reluLinRes x r w    = relu (x·w + r)          (a residual array of the result's shape)
    * reluDense x w b     = relu (x·w + b)          (a bias row, spread down the rows)
    * dense h w b         = h·w + b                 (no relu: the last layer)
  A kernel body computes an entry as a product into the zero accumulator, then the additions, then the maximum with
  the splat zero; its roundings of the operands to bf16 are the identity on extended reals. A host program computes
  it as a dot_general, the additions, and the maximum with the broadcast zero constant. In the residual layer the
  kernel adds the residual to the product and the host adds the product to the residual: addition commutes on the
  extended reals, infinite entries included, so no finiteness is used anywhere.
-/
import proofs.«156353_j65558380806593_1_alg».proof.Proof.LibDenseLayers
import proofs.«156353_j65558380806593_1_alg».proof.Proof.LibPlainRecord
import Idealize.ShloMosaic.Lib.IdealHost

noncomputable section

namespace Cert.Layers

open Idealize.ShloMosaic Idealize.ShloMosaic.ValueIdx Cert.LibMatRows Cert.LibDenseLayers Cert.LibHostBroadcast

variable {a k n : ℕ}

/-- The value of the f32 zero word. -/
def zeroF : EReal := Scalar.ofBits (F := Ideal) .f32 0x00000000#32

/-- Entry (p, q) of the product x·w. -/
def dotAt (x : (⟨2, ![a, k]⟩ : Shape).Idx → EReal) (w : (⟨2, ![k, n]⟩ : Shape).Idx → EReal) (p : Fin a) (q : Fin n) : EReal :=
  ∑ j : Fin k, x (ix2 p j) * w (ix2 j q)

/-- relu (x·w). -/
def reluLin (x : (⟨2, ![a, k]⟩ : Shape).Idx → EReal) (w : (⟨2, ![k, n]⟩ : Shape).Idx → EReal) :
    (⟨2, ![a, n]⟩ : Shape).Idx → EReal :=
  fun i => max (dotAt x w (i 0) (i 1)) zeroF

/-- relu (x·w + r). -/
def reluLinRes (x : (⟨2, ![a, k]⟩ : Shape).Idx → EReal) (r : (⟨2, ![a, n]⟩ : Shape).Idx → EReal)
    (w : (⟨2, ![k, n]⟩ : Shape).Idx → EReal) : (⟨2, ![a, n]⟩ : Shape).Idx → EReal :=
  fun i => max (dotAt x w (i 0) (i 1) + r (ix2 (i 0) (i 1))) zeroF

/-- relu (x·w + b). -/
def reluDense (x : (⟨2, ![a, k]⟩ : Shape).Idx → EReal) (w : (⟨2, ![k, n]⟩ : Shape).Idx → EReal)
    (b : (⟨2, ![1, n]⟩ : Shape).Idx → EReal) : (⟨2, ![a, n]⟩ : Shape).Idx → EReal :=
  fun i => max (denseAt x w b (i 0) (i 1)) zeroF

/-! ## A kernel body's entry -/

section kernel
variable {d : DotDims ⟨2, ![a, k]⟩ ⟨2, ![k, n]⟩ ⟨2, ![a, n]⟩} (hd : RowsTimesMat d)
include hd

/-- Rounded operands, a product into the zero accumulator, the maximum with the splat zero. -/
theorem kernel_reluLin (x : FVec Ideal ⟨2, ![a, k]⟩ .f32) (w : FVec Ideal ⟨2, ![k, n]⟩ .f32)
    (h1 : FTy.bf16.bits < FTy.f32.bits) (i : (⟨2, ![a, n]⟩ : Shape).Idx) :
    maximumf (matmul d none (truncf .bf16 x h1) (truncf .bf16 w h1) (constant (F := Ideal) ⟨2, ![a, n]⟩ .f32 0x00000000#32))
      (broadcast ⟨2, ![a, n]⟩ (Scalar.ofBits (F := Ideal) .f32 0x00000000#32)) i = reluLin x w i := by
  rw [eq_ix2 i]
  exact congrArg (max · zeroF) (matmul_rows hd _ _ _ _)

/-- The same with a residual added to the product. -/
theorem kernel_reluLinRes (x : FVec Ideal ⟨2, ![a, k]⟩ .f32) (r : FVec Ideal ⟨2, ![a, n]⟩ .f32) (w : FVec Ideal ⟨2, ![k, n]⟩ .f32)
    (h1 : FTy.bf16.bits < FTy.f32.bits) (i : (⟨2, ![a, n]⟩ : Shape).Idx) :
    maximumf (addf (matmul d none (truncf .bf16 x h1) (truncf .bf16 w h1) (constant (F := Ideal) ⟨2, ![a, n]⟩ .f32 0x00000000#32)) r)
      (broadcast ⟨2, ![a, n]⟩ (Scalar.ofBits (F := Ideal) .f32 0x00000000#32)) i = reluLinRes x r w i := by
  rw [eq_ix2 i]
  exact congrArg (max · zeroF) (congrArg (· + r (ix2 (i 0) (i 1))) (matmul_rows hd _ _ _ _))

/-- The same with the bias row spread down the rows. -/
theorem kernel_reluDense (x : FVec Ideal ⟨2, ![a, k]⟩ .f32) (w : FVec Ideal ⟨2, ![k, n]⟩ .f32) (b : FVec Ideal ⟨2, ![1, n]⟩ .f32)
    (hb : (⟨2, ![1, n]⟩ : Shape).Broadcasts ⟨2, ![a, n]⟩)
    (h1 : FTy.bf16.bits < FTy.f32.bits) (i : (⟨2, ![a, n]⟩ : Shape).Idx) :
    maximumf (addf (matmul d none (truncf .bf16 x h1) (truncf .bf16 w h1) (constant (F := Ideal) ⟨2, ![a, n]⟩ .f32 0x00000000#32))
        (broadcastTo ⟨2, ![a, n]⟩ b hb))
      (broadcast ⟨2, ![a, n]⟩ (Scalar.ofBits (F := Ideal) .f32 0x00000000#32)) i = reluDense x w b i := by
  rw [eq_ix2 i]
  exact congrArg (max · zeroF) (kernel_dense hd _ _ b hb _ _)

/-- The last layer: rounded operands, a product into the zero accumulator, the bias row. -/
theorem kernel_denseLast (x : FVec Ideal ⟨2, ![a, k]⟩ .f32) (w : FVec Ideal ⟨2, ![k, n]⟩ .f32) (b : FVec Ideal ⟨2, ![1, n]⟩ .f32)
    (hb : (⟨2, ![1, n]⟩ : Shape).Broadcasts ⟨2, ![a, n]⟩)
    (h1 : FTy.bf16.bits < FTy.f32.bits) (i : (⟨2, ![a, n]⟩ : Shape).Idx) :
    addf (matmul d none (truncf .bf16 x h1) (truncf .bf16 w h1) (constant (F := Ideal) ⟨2, ![a, n]⟩ .f32 0x00000000#32))
        (broadcastTo ⟨2, ![a, n]⟩ b hb) i = dense x w b i := by
  rw [eq_ix2 i]
  exact kernel_dense hd _ _ b hb _ _

end kernel

/-! ## A host program's layer, as a whole array -/

section host
variable {d : DotDims ⟨2, ![a, k]⟩ ⟨2, ![k, n]⟩ ⟨2, ![a, n]⟩}

/-- The broadcast zero constant reads the zero word's value everywhere. -/
theorem zero_splat_apply (hz : (⟨0, ![]⟩ : Shape).BroadcastsInDim ⟨2, ![a, n]⟩ ![]) (i : (⟨2, ![a, n]⟩ : Shape).Idx) :
    broadcastInDim ⟨2, ![a, n]⟩ ![] hz (constant (F := Ideal) ⟨0, ![]⟩ .f32 0x00000000#32) i = zeroF := rfl

/-- A dot_general and the maximum with the broadcast zero. -/
theorem host_reluLin (hd : RowsTimesMat d) (x : FVec Ideal ⟨2, ![a, k]⟩ .f32) (w : FVec Ideal ⟨2, ![k, n]⟩ .f32)
    (hz : (⟨0, ![]⟩ : Shape).BroadcastsInDim ⟨2, ![a, n]⟩ ![]) :
    maximumf (Host.dotGeneral d none x w) (broadcastInDim ⟨2, ![a, n]⟩ ![] hz (constant (F := Ideal) ⟨0, ![]⟩ .f32 0x00000000#32))
      = reluLin x w := by
  funext i
  rw [eq_ix2 i]
  exact congrArg (max · zeroF) (dotGeneral_rows hd x w _ _)

/-- The residual plus a dot_general, and the maximum with the broadcast zero: the sum commuted. -/
theorem host_reluLinRes (hd : RowsTimesMat d) (x : FVec Ideal ⟨2, ![a, k]⟩ .f32) (r : FVec Ideal ⟨2, ![a, n]⟩ .f32)
    (w : FVec Ideal ⟨2, ![k, n]⟩ .f32) (hz : (⟨0, ![]⟩ : Shape).BroadcastsInDim ⟨2, ![a, n]⟩ ![]) :
    maximumf (addf r (Host.dotGeneral d none x w)) (broadcastInDim ⟨2, ![a, n]⟩ ![] hz (constant (F := Ideal) ⟨0, ![]⟩ .f32 0x00000000#32))
      = reluLinRes x r w := by
  funext i
  rw [eq_ix2 i]
  exact congrArg (max · zeroF)
    ((add_comm _ _).trans (congrArg (· + r (ix2 (i 0) (i 1))) (dotGeneral_rows hd x w (i 0) (i 1))))

/-- A dot_general, the bias vector spread as a row and down the rows, the maximum with the broadcast zero. -/
theorem host_reluDense (hd : RowsTimesMat d) (x : FVec Ideal ⟨2, ![a, k]⟩ .f32) (w : FVec Ideal ⟨2, ![k, n]⟩ .f32)
    (b : FVec Ideal ⟨2, ![1, n]⟩ .f32) (h2 : (⟨2, ![1, n]⟩ : Shape).BroadcastsInDim ⟨2, ![a, n]⟩ (![0, 1] : Fin 2 → Fin 2))
    (hz : (⟨0, ![]⟩ : Shape).BroadcastsInDim ⟨2, ![a, n]⟩ ![]) :
    maximumf (addf (Host.dotGeneral d none x w) (broadcastInDim ⟨2, ![a, n]⟩ (![0, 1] : Fin 2 → Fin 2) h2 b))
      (broadcastInDim ⟨2, ![a, n]⟩ ![] hz (constant (F := Ideal) ⟨0, ![]⟩ .f32 0x00000000#32)) = reluDense x w b := by
  funext i
  rw [eq_ix2 i]
  exact congrArg (max · zeroF) (ref_dense hd x w b h2 _ _)

/-- The last layer on the host. -/
theorem host_denseLast (hd : RowsTimesMat d) (x : FVec Ideal ⟨2, ![a, k]⟩ .f32) (w : FVec Ideal ⟨2, ![k, n]⟩ .f32)
    (b : FVec Ideal ⟨2, ![1, n]⟩ .f32) (h2 : (⟨2, ![1, n]⟩ : Shape).BroadcastsInDim ⟨2, ![a, n]⟩ (![0, 1] : Fin 2 → Fin 2)) :
    addf (Host.dotGeneral d none x w) (broadcastInDim ⟨2, ![a, n]⟩ (![0, 1] : Fin 2 → Fin 2) h2 b) = dense x w b := by
  funext i
  rw [eq_ix2 i]
  exact ref_dense hd x w b h2 _ _

end host

end Cert.Layers

end
-- ==== Proof.Region0.lean ====
/-
  The first layer's launch: 80 grid points, point t taking rows 5000·t … 5000·t + 4999 of the edge features
  [400000, 147] and the whole weight matrix [147, 300], and writing rows 5000·t … of the result [400000, 300].
  Whatever the arrays hold when the launch is entered, the result array ends as relu (features · weights): each
  point's block is that function read through the point's rows, and the 80 row blocks cover the array.
-/
import proofs.«156353_j65558380806593_1_alg».proof.Proof.KernelIdealFramePatched
import proofs.«156353_j65558380806593_1_alg».proof.Proof.LibReluLayers
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)
open Cert.Layers Cert.LibMatRows Cert.LibPlainRecord

variable (V : (c : Dev nD) → (b : Ref sig .tc) → Buf (Elt Ideal) ((c : Thread nD τ).loc b))

/-- The block offsets' zero vector. -/
theorem hz0 : (![0, 0] : Fin 2 → Nat) = fun _ => 0 := funext fun a => by fin_cases a <;> rfl

/-- The body's product is a plain [5000,147] x [147,300] product. -/
theorem rows0 : RowsTimesMat dot_S5000x147_S147x300_S5000x300_1_0_0_1_n_n :=
  rowsTimesMat_of_lists _ rfl rfl rfl rfl rfl rfl

/-- What the body stores, entry by entry: relu of the product of its two loaded blocks. -/
theorem pay0_apply (x0 : FVec Ideal S5000x147 .f32) (x1 : FVec Ideal S147x300 .f32) (j : S5000x300.Idx) :
    k0_pay1 (F := Ideal) x0 x1 j = reluLin x0 x1 j := by
  unfold k0_pay1
  simp only [shapeCast_self]
  exact kernel_reluLin rows0 x0 x1 _ j

/-- The windows' block indices over the grid: the row block moves with the point, everything else stays at 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of relu (features · weights). -/
theorem flushed0 (c : Dev nD) (t : Fin cfg0.N) :
    (dat0 V c).flushed 2 t = ((cfg0.win 2).blk t).view.read (Elt Ideal) (reluLin (V c main_v11) (V c main_v12)) := by
  show (cfg0.win 2).cut (grid0.coords t) ((dat0 V c).after 2 t) = _
  rw [after0_2]
  unfold out0_2
  rw [View.canon_unit_zero hz0]
  simp only [View.ld_unit_zero (S := S5000x147) hz0, View.ld_unit_zero (S := S147x300) hz0]
  obtain ⟨e0, e1, e2, e3, e4, e5⟩ := idx_facts0 t
  funext j
  refine (pay0_apply (iblk0 V c 0 t) (iblk0 V c 1 t) j).trans ?_
  show max (∑ k : Fin 147, (show S400000x147.Idx → EReal from V c main_v11) (((cfg0.win 0).blk t).view.emb (ix2 (j 0) k))
        * (show S147x300.Idx → EReal from V c main_v12) (((cfg0.win 1).blk t).view.emb (ix2 k (j 1)))) zeroF
    = max (∑ k : Fin 147, (show S400000x147.Idx → EReal from V c main_v11) (ix2 ((((cfg0.win 2).blk t).view.emb j) 0) k)
        * (show S147x300.Idx → EReal from V c main_v12) (ix2 k ((((cfg0.win 2).blk t).view.emb j) 1))) zeroF
  have hx : ∀ k : Fin 147, ((cfg0.win 0).blk t).view.emb (ix2 (j 0) k) = ix2 ((((cfg0.win 2).blk t).view.emb j) 0) k := by
    intro k; funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 147 + 1 * k.val = k.val; omega
  have hw : ∀ k : Fin 147, ((cfg0.win 1).blk t).view.emb (ix2 k (j 1)) = ix2 k ((((cfg0.win 2).blk t).view.emb j) 1) := by
    intro k; funext a; apply Fin.ext
    match a with
    | ⟨0, _⟩ => show win0_1.index t (0 : Fin 2) * 147 + 1 * k.val = k.val; omega
    | ⟨1, _⟩ => show win0_1.index t (1 : Fin 2) * 300 + 1 * (j 1).val = win0_2.index t (1 : Fin 2) * 300 + 1 * (j 1).val; omega
  exact congrArg (max · zeroF) (Finset.sum_congr rfl fun k _ => by rw [hx k, hw k] <;> rfl)

/-- An index of the result is in point t's block iff each coordinate is in the block's range. -/
theorem mem_blk0 (t : Fin cfg0.N) (i : S400000x300.Idx) :
    i ∈ ((cfg0.win 2).blk t).view.set ↔ ∀ a : Fin 2, win0_2.index t a * S5000x300.size a ≤ (i a).val ∧ (i a).val < win0_2.index t a * S5000x300.size a + S5000x300.size a := by
  show i ∈ ((View.whole main_v13).slice (win0_2.rect t)).set ↔ _
  rw [View.set_slice_whole, Rect.mem_set_unit]
  exact Iff.rfl

/-- The 80 row blocks cover the result: row r is in block r / 5000. -/
theorem cover0 (i : S400000x300.Idx) : ∃ t : Fin cfg0.N, (cfg0.win 2).flush t = true ∧ i ∈ ((cfg0.win 2).blk t).view.set := by
  have hi0 : (i 0).val < 400000 := (i 0).isLt
  have hi1 : (i 1).val < 300 := (i 1).isLt
  have hN : cfg0.N = 80 := rfl
  let t : Fin cfg0.N := ⟨(i 0).val / 5000, by rw [hN]; omega⟩
  obtain ⟨e0, e1, e2, e3, e4, e5⟩ := idx_facts0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 300 ≤ (i 1).val ∧ (i 1).val < win0_2.index t (1 : Fin 2) * 300 + 300; omega

/-- The result array after the launch. -/
theorem final0 (c : Dev nD) : (dat0 V c).arrAt 2 cfg0.N = reluLin (V c main_v11) (V c main_v12) :=
  (dat0 V c).arrAt_eq_of_cover 2 _ (fun t _ => flushed0 V c t) cover0

end Cert.KernelIdeal.Blocks

end
-- ==== Proof.Region1.lean ====
/-
  A message-passing layer's launch: 100 grid points, point t taking rows 4000·t … 4000·t + 3999 of the gathered
  neighbour sums [400000, 300] and of the previous messages [400000, 300] (the residual), and the whole weight matrix
  [300, 300], and writing the same rows of the new messages. Whatever the arrays hold when the launch is entered, the
  result array ends as relu (gathered · weights + previous): each point's block is that function read through the
  point's rows, and the 100 row blocks cover the array.
-/
import proofs.«156353_j65558380806593_1_alg».proof.Proof.KernelIdealFramePatched
import proofs.«156353_j65558380806593_1_alg».proof.Proof.LibReluLayers
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)
open Cert.Layers Cert.LibMatRows Cert.LibPlainRecord

variable (V : (c : Dev nD) → (b : Ref sig .tc) → Buf (Elt Ideal) ((c : Thread nD τ).loc b))

/-- The block offsets' zero vector. -/
theorem hz1 : (![0, 0] : Fin 2 → Nat) = fun _ => 0 := funext fun a => by fin_cases a <;> rfl

/-- The body's product is a plain [4000,300] x [300,300] product. -/
theorem rows1 : RowsTimesMat dot_S4000x300_S300x300_S4000x300_1_0_0_1_n_n :=
  rowsTimesMat_of_lists _ rfl rfl rfl rfl rfl rfl

/-- What the body stores, entry by entry: relu of the product of the gathered block and the weights, plus the residual
    block. -/
theorem pay1_apply (x0 : FVec Ideal S4000x300 .f32) (w : FVec Ideal S300x300 .f32) (r : FVec Ideal S4000x300 .f32)
    (j : S4000x300.Idx) : k1_pay1 (F := Ideal) x0 w r j = reluLinRes x0 r w j := by
  unfold k1_pay1
  simp only [shapeCast_self]
  exact kernel_reluLinRes rows1 x0 r w _ j

/-- The windows' block indices over the grid: the row blocks move with the point, everything else stays at 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of relu (gathered · weights + previous). -/
theorem flushed1 (c : Dev nD) (t : Fin cfg1.N) :
    (dat1 V c).flushed 3 t = ((cfg1.win 3).blk t).view.read (Elt Ideal) (reluLinRes (V c main_v24) (V c main_v13) (V c main_v14)) := by
  show (cfg1.win 3).cut (grid1.coords t) ((dat1 V c).after 3 t) = _
  rw [after1_3]
  unfold out1_3
  rw [View.canon_unit_zero hz1]
  simp only [View.ld_unit_zero (S := S4000x300) hz1, View.ld_unit_zero (S := S300x300) hz1]
  obtain ⟨e0, e1, e2, e3, e4, e5, e6, e7⟩ := idx_facts1 t
  funext j
  refine (pay1_apply (iblk1 V c 0 t) (iblk1 V c 2 t) (iblk1 V c 1 t) j).trans ?_
  show max ((∑ k : Fin 300, (show S400000x300.Idx → EReal from V c main_v24) (((cfg1.win 0).blk t).view.emb (ix2 (j 0) k)) * (show S300x300.Idx → EReal from V c main_v14) (((cfg1.win 2).blk t).view.emb (ix2 k (j 1))))
        + (show S400000x300.Idx → EReal from V c main_v13) (((cfg1.win 1).blk t).view.emb (ix2 (j 0) (j 1)))) zeroF
    = max ((∑ k : Fin 300, (show S400000x300.Idx → EReal from V c main_v24) (ix2 ((((cfg1.win 3).blk t).view.emb j) 0) k) * (show S300x300.Idx → EReal from V c main_v14) (ix2 k ((((cfg1.win 3).blk t).view.emb j) 1)))
        + (show S400000x300.Idx → EReal from V c main_v13) (ix2 ((((cfg1.win 3).blk t).view.emb j) 0) ((((cfg1.win 3).blk t).view.emb j) 1))) zeroF
  have hx : ∀ k : Fin 300, ((cfg1.win 0).blk t).view.emb (ix2 (j 0) k) = ix2 ((((cfg1.win 3).blk t).view.emb j) 0) k := by
    intro k; funext a; apply Fin.ext
    match a with
    | ⟨0, _⟩ => show win1_0.index t (0 : Fin 2) * 4000 + 1 * (j 0).val = win1_3.index t (0 : Fin 2) * 4000 + 1 * (j 0).val; omega
    | ⟨1, _⟩ => show win1_0.index t (1 : Fin 2) * 300 + 1 * k.val = k.val; omega
  have hw : ∀ k : Fin 300, ((cfg1.win 2).blk t).view.emb (ix2 k (j 1)) = ix2 k ((((cfg1.win 3).blk t).view.emb j) 1) := by
    intro k; funext a; apply Fin.ext
    match a with
    | ⟨0, _⟩ => show win1_2.index t (0 : Fin 2) * 300 + 1 * k.val = k.val; omega
    | ⟨1, _⟩ => show win1_2.index t (1 : Fin 2) * 300 + 1 * (j 1).val = win1_3.index t (1 : Fin 2) * 300 + 1 * (j 1).val; omega
  have hr : ((cfg1.win 1).blk t).view.emb (ix2 (j 0) (j 1))
      = ix2 ((((cfg1.win 3).blk t).view.emb j) 0) ((((cfg1.win 3).blk t).view.emb j) 1) := by
    funext a; apply Fin.ext
    match a with
    | ⟨0, _⟩ => show win1_1.index t (0 : Fin 2) * 4000 + 1 * (j 0).val = win1_3.index t (0 : Fin 2) * 4000 + 1 * (j 0).val; omega
    | ⟨1, _⟩ => show win1_1.index t (1 : Fin 2) * 300 + 1 * (j 1).val = win1_3.index t (1 : Fin 2) * 300 + 1 * (j 1).val; omega
  rw [hr]
  exact congrArg (max · zeroF) (congrArg (· + _) (Finset.sum_congr rfl fun k _ => by rw [hx k, hw k] <;> rfl))

/-- An index of the result is in point t's block iff each coordinate is in the block's range. -/
theorem mem_blk1 (t : Fin cfg1.N) (i : S400000x300.Idx) :
    i ∈ ((cfg1.win 3).blk t).view.set ↔ ∀ a : Fin 2, win1_3.index t a * S4000x300.size a ≤ (i a).val ∧ (i a).val < win1_3.index t a * S4000x300.size a + S4000x300.size a := by
  show i ∈ ((View.whole main_v25).slice (win1_3.rect t)).set ↔ _
  rw [View.set_slice_whole, Rect.mem_set_unit]
  exact Iff.rfl

/-- The 100 row blocks cover the result: row r is in block r / 4000. -/
theorem cover1 (i : S400000x300.Idx) : ∃ t : Fin cfg1.N, (cfg1.win 3).flush t = true ∧ i ∈ ((cfg1.win 3).blk t).view.set := by
  have hi0 : (i 0).val < 400000 := (i 0).isLt
  have hi1 : (i 1).val < 300 := (i 1).isLt
  have hN : cfg1.N = 100 := rfl
  let t : Fin cfg1.N := ⟨(i 0).val / 4000, by rw [hN]; omega⟩
  obtain ⟨e0, e1, e2, e3, e4, e5, e6, e7⟩ := idx_facts1 t
  have ht : t.val = (i 0).val / 4000 := rfl
  refine ⟨t, flush1_3 t, ?_⟩
  rw [mem_blk1]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 300 ≤ (i 1).val ∧ (i 1).val < win1_3.index t (1 : Fin 2) * 300 + 300; omega

/-- The result array after the launch. -/
theorem final1 (c : Dev nD) : (dat1 V c).arrAt 3 cfg1.N = reluLinRes (V c main_v24) (V c main_v13) (V c main_v14) :=
  (dat1 V c).arrAt_eq_of_cover 3 _ (fun t _ => flushed1 V c t) cover1

end Cert.KernelIdeal.Blocks

end
-- ==== Proof.Region2.lean ====
/-
  A message-passing layer's launch: 100 grid points, point t taking rows 4000·t … 4000·t + 3999 of the gathered
  neighbour sums [400000, 300] and of the previous messages [400000, 300] (the residual), and the whole weight matrix
  [300, 300], and writing the same rows of the new messages. Whatever the arrays hold when the launch is entered, the
  result array ends as relu (gathered · weights + previous): each point's block is that function read through the
  point's rows, and the 100 row blocks cover the array.
-/
import proofs.«156353_j65558380806593_1_alg».proof.Proof.KernelIdealFramePatched
import proofs.«156353_j65558380806593_1_alg».proof.Proof.LibReluLayers
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)
open Cert.Layers Cert.LibMatRows Cert.LibPlainRecord

variable (V : (c : Dev nD) → (b : Ref sig .tc) → Buf (Elt Ideal) ((c : Thread nD τ).loc b))

/-- The block offsets' zero vector. -/
theorem hz2 : (![0, 0] : Fin 2 → Nat) = fun _ => 0 := funext fun a => by fin_cases a <;> rfl

/-- The body's product is a plain [4000,300] x [300,300] product. -/
theorem rows2 : RowsTimesMat dot_S4000x300_S300x300_S4000x300_1_0_0_1_n_n :=
  rowsTimesMat_of_lists _ rfl rfl rfl rfl rfl rfl

/-- What the body stores, entry by entry: relu of the product of the gathered block and the weights, plus the residual
    block. -/
theorem pay2_apply (x0 : FVec Ideal S4000x300 .f32) (w : FVec Ideal S300x300 .f32) (r : FVec Ideal S4000x300 .f32)
    (j : S4000x300.Idx) : k2_pay1 (F := Ideal) x0 w r j = reluLinRes x0 r w j := by
  unfold k2_pay1
  simp only [shapeCast_self]
  exact kernel_reluLinRes rows2 x0 r w _ j

/-- The windows' block indices over the grid: the row blocks move with the point, everything else stays at 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of relu (gathered · weights + previous). -/
theorem flushed2 (c : Dev nD) (t : Fin cfg2.N) :
    (dat2 V c).flushed 3 t = ((cfg2.win 3).blk t).view.read (Elt Ideal) (reluLinRes (V c main_v35) (V c main_v25) (V c main_v14)) := by
  show (cfg2.win 3).cut (grid2.coords t) ((dat2 V c).after 3 t) = _
  rw [after2_3]
  unfold out2_3
  rw [View.canon_unit_zero hz2]
  simp only [View.ld_unit_zero (S := S4000x300) hz2, View.ld_unit_zero (S := S300x300) hz2]
  obtain ⟨e0, e1, e2, e3, e4, e5, e6, e7⟩ := idx_facts2 t
  funext j
  refine (pay2_apply (iblk2 V c 0 t) (iblk2 V c 2 t) (iblk2 V c 1 t) j).trans ?_
  show max ((∑ k : Fin 300, (show S400000x300.Idx → EReal from V c main_v35) (((cfg2.win 0).blk t).view.emb (ix2 (j 0) k)) * (show S300x300.Idx → EReal from V c main_v14) (((cfg2.win 2).blk t).view.emb (ix2 k (j 1))))
        + (show S400000x300.Idx → EReal from V c main_v25) (((cfg2.win 1).blk t).view.emb (ix2 (j 0) (j 1)))) zeroF
    = max ((∑ k : Fin 300, (show S400000x300.Idx → EReal from V c main_v35) (ix2 ((((cfg2.win 3).blk t).view.emb j) 0) k) * (show S300x300.Idx → EReal from V c main_v14) (ix2 k ((((cfg2.win 3).blk t).view.emb j) 1)))
        + (show S400000x300.Idx → EReal from V c main_v25) (ix2 ((((cfg2.win 3).blk t).view.emb j) 0) ((((cfg2.win 3).blk t).view.emb j) 1))) zeroF
  have hx : ∀ k : Fin 300, ((cfg2.win 0).blk t).view.emb (ix2 (j 0) k) = ix2 ((((cfg2.win 3).blk t).view.emb j) 0) k := by
    intro k; funext a; apply Fin.ext
    match a with
    | ⟨0, _⟩ => show win2_0.index t (0 : Fin 2) * 4000 + 1 * (j 0).val = win2_3.index t (0 : Fin 2) * 4000 + 1 * (j 0).val; omega
    | ⟨1, _⟩ => show win2_0.index t (1 : Fin 2) * 300 + 1 * k.val = k.val; omega
  have hw : ∀ k : Fin 300, ((cfg2.win 2).blk t).view.emb (ix2 k (j 1)) = ix2 k ((((cfg2.win 3).blk t).view.emb j) 1) := by
    intro k; funext a; apply Fin.ext
    match a with
    | ⟨0, _⟩ => show win2_2.index t (0 : Fin 2) * 300 + 1 * k.val = k.val; omega
    | ⟨1, _⟩ => show win2_2.index t (1 : Fin 2) * 300 + 1 * (j 1).val = win2_3.index t (1 : Fin 2) * 300 + 1 * (j 1).val; omega
  have hr : ((cfg2.win 1).blk t).view.emb (ix2 (j 0) (j 1))
      = ix2 ((((cfg2.win 3).blk t).view.emb j) 0) ((((cfg2.win 3).blk t).view.emb j) 1) := by
    funext a; apply Fin.ext
    match a with
    | ⟨0, _⟩ => show win2_1.index t (0 : Fin 2) * 4000 + 1 * (j 0).val = win2_3.index t (0 : Fin 2) * 4000 + 1 * (j 0).val; omega
    | ⟨1, _⟩ => show win2_1.index t (1 : Fin 2) * 300 + 1 * (j 1).val = win2_3.index t (1 : Fin 2) * 300 + 1 * (j 1).val; omega
  rw [hr]
  exact congrArg (max · zeroF) (congrArg (· + _) (Finset.sum_congr rfl fun k _ => by rw [hx k, hw k] <;> rfl))

/-- An index of the result is in point t's block iff each coordinate is in the block's range. -/
theorem mem_blk2 (t : Fin cfg2.N) (i : S400000x300.Idx) :
    i ∈ ((cfg2.win 3).blk t).view.set ↔ ∀ a : Fin 2, win2_3.index t a * S4000x300.size a ≤ (i a).val ∧ (i a).val < win2_3.index t a * S4000x300.size a + S4000x300.size a := by
  show i ∈ ((View.whole main_v36).slice (win2_3.rect t)).set ↔ _
  rw [View.set_slice_whole, Rect.mem_set_unit]
  exact Iff.rfl

/-- The 100 row blocks cover the result: row r is in block r / 4000. -/
theorem cover2 (i : S400000x300.Idx) : ∃ t : Fin cfg2.N, (cfg2.win 3).flush t = true ∧ i ∈ ((cfg2.win 3).blk t).view.set := by
  have hi0 : (i 0).val < 400000 := (i 0).isLt
  have hi1 : (i 1).val < 300 := (i 1).isLt
  have hN : cfg2.N = 100 := rfl
  let t : Fin cfg2.N := ⟨(i 0).val / 4000, by rw [hN]; omega⟩
  obtain ⟨e0, e1, e2, e3, e4, e5, e6, e7⟩ := idx_facts2 t
  have ht : t.val = (i 0).val / 4000 := rfl
  refine ⟨t, flush2_3 t, ?_⟩
  rw [mem_blk2]
  intro a
  match a with
  | ⟨0, _⟩ => show win2_3.index t (0 : Fin 2) * 4000 ≤ (i 0).val ∧ (i 0).val < win2_3.index t (0 : Fin 2) * 4000 + 4000; omega
  | ⟨1, _⟩ => show win2_3.index t (1 : Fin 2) * 300 ≤ (i 1).val ∧ (i 1).val < win2_3.index t (1 : Fin 2) * 300 + 300; omega

/-- The result array after the launch. -/
theorem final2 (c : Dev nD) : (dat2 V c).arrAt 3 cfg2.N = reluLinRes (V c main_v35) (V c main_v25) (V c main_v14) :=
  (dat2 V c).arrAt_eq_of_cover 3 _ (fun t _ => flushed2 V c t) cover2

end Cert.KernelIdeal.Blocks

end
-- ==== Proof.Region3.lean ====
/-
  The atom layer's launch: 20 grid points, point t taking rows 5000·t … 5000·t + 4999 of the atom inputs [100000, 433],
  the whole weight matrix [433, 300] and the bias row [1, 300], and writing the same rows of the atom hidden states
  [100000, 300]. Whatever the arrays hold when the launch is entered, the result array ends as
  relu (inputs · weights + bias): each point's block is that function read through the point's rows, and the 20 row
  blocks cover the array.
-/
import proofs.«156353_j65558380806593_1_alg».proof.Proof.KernelIdealFramePatched
import proofs.«156353_j65558380806593_1_alg».proof.Proof.LibReluLayers
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)
open Cert.Layers Cert.LibMatRows Cert.LibPlainRecord

variable (V : (c : Dev nD) → (b : Ref sig .tc) → Buf (Elt Ideal) ((c : Thread nD τ).loc b))

/-- The block offsets' zero vector. -/
theorem hz3 : (![0, 0] : Fin 2 → Nat) = fun _ => 0 := funext fun a => by fin_cases a <;> rfl

/-- The body's product is a plain [5000,433] x [433,300] product. -/
theorem rows3 : RowsTimesMat dot_S5000x433_S433x300_S5000x300_1_0_0_1_n_n :=
  rowsTimesMat_of_lists _ rfl rfl rfl rfl rfl rfl

/-- What the body stores, entry by entry: relu of the product of its input block and the weights, plus the bias row. -/
theorem pay3_apply (x0 : FVec Ideal S5000x433 .f32) (w : FVec Ideal S433x300 .f32) (b : FVec Ideal S1x300 .f32)
    (j : S5000x300.Idx) : k3_pay1 (F := Ideal) x0 w b j = reluDense x0 w b j := by
  unfold k3_pay1
  simp only [shapeCast_self]
  exact kernel_reluDense rows3 x0 w b _ _ j

/-- The windows' block indices over the grid: the row blocks move with the point, everything else stays at 0. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of relu (inputs · weights + bias). -/
theorem flushed3 (c : Dev nD) (t : Fin cfg3.N) :
    (dat3 V c).flushed 3 t = ((cfg3.win 3).blk t).view.read (Elt Ideal) (reluDense (V c main_v40) (V c main_v41) (V c main_v42)) := by
  show (cfg3.win 3).cut (grid3.coords t) ((dat3 V c).after 3 t) = _
  rw [after3_3]
  unfold out3_3
  rw [View.canon_unit_zero hz3]
  simp only [View.ld_unit_zero (S := S5000x433) hz3, View.ld_unit_zero (S := S433x300) hz3, View.ld_unit_zero (S := S1x300) hz3]
  obtain ⟨e0, e1, e2, e3, e4, e5, e6, e7⟩ := idx_facts3 t
  funext j
  refine (pay3_apply (iblk3 V c 0 t) (iblk3 V c 1 t) (iblk3 V c 2 t) j).trans ?_
  show max ((∑ k : Fin 433, (show S100000x433.Idx → EReal from V c main_v40) (((cfg3.win 0).blk t).view.emb (ix2 (j 0) k)) * (show S433x300.Idx → EReal from V c main_v41) (((cfg3.win 1).blk t).view.emb (ix2 k (j 1))))
        + (show S1x300.Idx → EReal from V c main_v42) (((cfg3.win 2).blk t).view.emb (ix2 (0 : Fin 1) (j 1)))) zeroF
    = max ((∑ k : Fin 433, (show S100000x433.Idx → EReal from V c main_v40) (ix2 ((((cfg3.win 3).blk t).view.emb j) 0) k) * (show S433x300.Idx → EReal from V c main_v41) (ix2 k ((((cfg3.win 3).blk t).view.emb j) 1)))
        + (show S1x300.Idx → EReal from V c main_v42) (ix2 (0 : Fin 1) ((((cfg3.win 3).blk t).view.emb j) 1))) zeroF
  have hx : ∀ k : Fin 433, ((cfg3.win 0).blk t).view.emb (ix2 (j 0) k) = ix2 ((((cfg3.win 3).blk t).view.emb j) 0) k := by
    intro k; funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 433 + 1 * k.val = k.val; omega
  have hw : ∀ k : Fin 433, ((cfg3.win 1).blk t).view.emb (ix2 k (j 1)) = ix2 k ((((cfg3.win 3).blk t).view.emb j) 1) := by
    intro k; funext a; apply Fin.ext
    match a with
    | ⟨0, _⟩ => show win3_1.index t (0 : Fin 2) * 433 + 1 * k.val = k.val; omega
    | ⟨1, _⟩ => show win3_1.index t (1 : Fin 2) * 300 + 1 * (j 1).val = win3_3.index t (1 : Fin 2) * 300 + 1 * (j 1).val; omega
  have hb : ((cfg3.win 2).blk t).view.emb (ix2 (0 : Fin 1) (j 1)) = ix2 (0 : Fin 1) ((((cfg3.win 3).blk t).view.emb j) 1) := by
    funext a; apply Fin.ext
    match a with
    | ⟨0, _⟩ => show win3_2.index t (0 : Fin 2) * 1 + 1 * 0 = 0; omega
    | ⟨1, _⟩ => show win3_2.index t (1 : Fin 2) * 300 + 1 * (j 1).val = win3_3.index t (1 : Fin 2) * 300 + 1 * (j 1).val; omega
  rw [hb]
  exact congrArg (max · zeroF) (congrArg (· + _) (Finset.sum_congr rfl fun k _ => by rw [hx k, hw k] <;> rfl))

/-- An index of the result is in point t's block iff each coordinate is in the block's range. -/
theorem mem_blk3 (t : Fin cfg3.N) (i : S100000x300.Idx) :
    i ∈ ((cfg3.win 3).blk t).view.set ↔ ∀ a : Fin 2, win3_3.index t a * S5000x300.size a ≤ (i a).val ∧ (i a).val < win3_3.index t a * S5000x300.size a + S5000x300.size a := by
  show i ∈ ((View.whole main_v43).slice (win3_3.rect t)).set ↔ _
  rw [View.set_slice_whole, Rect.mem_set_unit]
  exact Iff.rfl

/-- The 20 row blocks cover the result: row r is in block r / 5000. -/
theorem cover3 (i : S100000x300.Idx) : ∃ t : Fin cfg3.N, (cfg3.win 3).flush t = true ∧ i ∈ ((cfg3.win 3).blk t).view.set := by
  have hi0 : (i 0).val < 100000 := (i 0).isLt
  have hi1 : (i 1).val < 300 := (i 1).isLt
  have hN : cfg3.N = 20 := rfl
  let t : Fin cfg3.N := ⟨(i 0).val / 5000, by rw [hN]; omega⟩
  obtain ⟨e0, e1, e2, e3, e4, e5, e6, e7⟩ := idx_facts3 t
  have ht : t.val = (i 0).val / 5000 := rfl
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 300 ≤ (i 1).val ∧ (i 1).val < win3_3.index t (1 : Fin 2) * 300 + 300; omega

/-- The result array after the launch. -/
theorem final3 (c : Dev nD) : (dat3 V c).arrAt 3 cfg3.N = reluDense (V c main_v40) (V c main_v41) (V c main_v42) :=
  (dat3 V c).arrAt_eq_of_cover 3 _ (fun t _ => flushed3 V c t) cover3

end Cert.KernelIdeal.Blocks

end
-- ==== Proof.Region4.lean ====
/-
  The readout head's launch: one grid point, every window its whole array — the molecule sums [4096, 300], the first
  weight matrix [300, 300] and bias row [1, 300], the second weight column [300, 1] and bias [1, 1] — writing the
  whole result [4096, 1]. Whatever the arrays hold when the launch is entered, the result array ends as
  relu (sums · W1 + b1) · W2 + b2.
-/
import proofs.«156353_j65558380806593_1_alg».proof.Proof.KernelIdealFramePatched
import proofs.«156353_j65558380806593_1_alg».proof.Proof.LibReluLayers
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)
open Cert.Layers Cert.LibMatRows Cert.LibPlainRecord

variable (V : (c : Dev nD) → (b : Ref sig .tc) → Buf (Elt Ideal) ((c : Thread nD τ).loc b))

open Cert.LibDenseLayers

/-- The block offsets' zero vector. -/
theorem hz4 : (![0, 0] : Fin 2 → Nat) = fun _ => 0 := funext fun a => by fin_cases a <;> rfl

/-- The body's first product is a plain [4096,300] x [300,300] product, -/
theorem rows4a : RowsTimesMat dot_S4096x300_S300x300_S4096x300_1_0_0_1_n_n :=
  rowsTimesMat_of_lists _ rfl rfl rfl rfl rfl rfl
/-- and its second a plain [4096,300] x [300,1] product. -/
theorem rows4b : RowsTimesMat dot_S4096x300_S300x1_S4096x1_1_0_0_1_n_n :=
  rowsTimesMat_of_lists _ rfl rfl rfl rfl rfl rfl

/-- What the body stores, entry by entry: the second dense layer of the relu of the first. -/
theorem pay4_apply (x0 : FVec Ideal S4096x300 .f32) (w1 : FVec Ideal S300x300 .f32) (b1 : FVec Ideal S1x300 .f32)
    (w2 : FVec Ideal S300x1 .f32) (b2 : FVec Ideal S1x1 .f32) (j : S4096x1.Idx) :
    k4_pay1 (F := Ideal) x0 w1 b1 w2 b2 j = dense (reluDense x0 w1 b1) w2 b2 j := by
  unfold k4_pay1
  simp only [shapeCast_self]
  refine (kernel_denseLast rows4b _ w2 b2 _ _ j).trans ?_
  exact congrArg (fun h => dense h w2 b2 j) (funext fun i => kernel_reluDense rows4a x0 w1 b1 _ _ i)

/-- The windows' block indices at the one grid point: all 0. -/
theorem idx_facts4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- Each input window's one block is its whole array. -/
theorem iblk4_0 (c : Dev nD) (t : Fin cfg4.N) : iblk4 V c 0 t = V c main_v46 := by
  obtain ⟨e0, e1, -⟩ := idx_facts4 t
  funext y
  show V c main_v46 (((cfg4.win 0).blk t).view.emb y) = V c main_v46 y
  refine congrArg _ (funext fun a => Fin.ext ?_)
  match a with
  | ⟨0, _⟩ => show win4_0.index t (0 : Fin 2) * 4096 + 1 * (y 0).val = (y 0).val; omega
  | ⟨1, _⟩ => show win4_0.index t (1 : Fin 2) * 300 + 1 * (y 1).val = (y 1).val; omega
theorem iblk4_1 (c : Dev nD) (t : Fin cfg4.N) : iblk4 V c 1 t = V c main_v47 := by
  obtain ⟨-, -, e0, e1, -⟩ := idx_facts4 t
  funext y
  show V c main_v47 (((cfg4.win 1).blk t).view.emb y) = V c main_v47 y
  refine congrArg _ (funext fun a => Fin.ext ?_)
  match a with
  | ⟨0, _⟩ => show win4_1.index t (0 : Fin 2) * 300 + 1 * (y 0).val = (y 0).val; omega
  | ⟨1, _⟩ => show win4_1.index t (1 : Fin 2) * 300 + 1 * (y 1).val = (y 1).val; omega
theorem iblk4_2 (c : Dev nD) (t : Fin cfg4.N) : iblk4 V c 2 t = V c main_v49 := by
  obtain ⟨-, -, -, -, e0, e1, -⟩ := idx_facts4 t
  funext y
  show V c main_v49 (((cfg4.win 2).blk t).view.emb y) = V c main_v49 y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 300 + 1 * (y 1).val = (y 1).val; omega
theorem iblk4_3 (c : Dev nD) (t : Fin cfg4.N) : iblk4 V c 3 t = V c main_v48 := by
  obtain ⟨-, -, -, -, -, -, e0, e1, -⟩ := idx_facts4 t
  funext y
  show V c main_v48 (((cfg4.win 3).blk t).view.emb y) = V c main_v48 y
  refine congrArg _ (funext fun a => Fin.ext ?_)
  match a with
  | ⟨0, _⟩ => show win4_3.index t (0 : Fin 2) * 300 + 1 * (y 0).val = (y 0).val; omega
  | ⟨1, _⟩ => show win4_3.index t (1 : Fin 2) * 1 + 1 * (y 1).val = (y 1).val; omega
theorem iblk4_4 (c : Dev nD) (t : Fin cfg4.N) : iblk4 V c 4 t = V c main_v50 := by
  obtain ⟨-, -, -, -, -, -, -, -, e0, e1, -⟩ := idx_facts4 t
  funext y
  show V c main_v50 (((cfg4.win 4).blk t).view.emb y) = V c main_v50 y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 1 + 1 * (y 1).val = (y 1).val; omega

/-- What the one point writes back is the whole of relu (sums · W1 + b1) · W2 + b2. -/
theorem flushed4 (c : Dev nD) (t : Fin cfg4.N) :
    (dat4 V c).flushed 5 t = ((cfg4.win 5).blk t).view.read (Elt Ideal)
      (dense (reluDense (V c main_v46) (V c main_v47) (V c main_v49)) (V c main_v48) (V c main_v50)) := by
  show (cfg4.win 5).cut (grid4.coords t) ((dat4 V c).after 5 t) = _
  rw [after4_5]
  unfold out4_5
  rw [View.canon_unit_zero hz4]
  simp only [View.ld_unit_zero (S := S4096x300) hz4, View.ld_unit_zero (S := S300x300) hz4, View.ld_unit_zero (S := S1x300) hz4,
    View.ld_unit_zero (S := S300x1) hz4, View.ld_unit_zero (S := S1x1) hz4]
  rw [iblk4_0 V c t, iblk4_1 V c t, iblk4_2 V c t, iblk4_3 V c t, iblk4_4 V c t]
  obtain ⟨-, -, -, -, -, -, -, -, -, -, e0, e1⟩ := idx_facts4 t
  funext j
  refine (pay4_apply (V c main_v46) (V c main_v47) (V c main_v49) (V c main_v48) (V c main_v50) j).trans ?_
  show dense (reluDense (V c main_v46) (V c main_v47) (V c main_v49)) (V c main_v48) (V c main_v50) j
    = dense (reluDense (V c main_v46) (V c main_v47) (V c main_v49)) (V c main_v48) (V c main_v50) (((cfg4.win 5).blk t).view.emb j)
  refine congrArg _ (funext fun a => Fin.ext ?_)
  match a with
  | ⟨0, _⟩ => show (j 0).val = win4_5.index t (0 : Fin 2) * 4096 + 1 * (j 0).val; omega
  | ⟨1, _⟩ => show (j 1).val = win4_5.index t (1 : Fin 2) * 1 + 1 * (j 1).val; omega

/-- An index of the result is in the point's block iff each coordinate is in the block's range. -/
theorem mem_blk4 (t : Fin cfg4.N) (i : S4096x1.Idx) :
    i ∈ ((cfg4.win 5).blk t).view.set ↔ ∀ a : Fin 2, win4_5.index t a * S4096x1.size a ≤ (i a).val ∧ (i a).val < win4_5.index t a * S4096x1.size a + S4096x1.size a := by
  show i ∈ ((View.whole main_v51).slice (win4_5.rect t)).set ↔ _
  rw [View.set_slice_whole, Rect.mem_set_unit]
  exact Iff.rfl

/-- The one block covers the result. -/
theorem cover4 (i : S4096x1.Idx) : ∃ t : Fin cfg4.N, (cfg4.win 5).flush t = true ∧ i ∈ ((cfg4.win 5).blk t).view.set := by
  have hi0 : (i 0).val < 4096 := (i 0).isLt
  have hi1 : (i 1).val < 1 := (i 1).isLt
  have hN : cfg4.N = 1 := rfl
  let t : Fin cfg4.N := ⟨0, by rw [hN]; omega⟩
  obtain ⟨-, -, -, -, -, -, -, -, -, -, e0, e1⟩ := idx_facts4 t
  refine ⟨t, flush4_5 t, ?_⟩
  rw [mem_blk4]
  intro a
  match a with
  | ⟨0, _⟩ => show win4_5.index t (0 : Fin 2) * 4096 ≤ (i 0).val ∧ (i 0).val < win4_5.index t (0 : Fin 2) * 4096 + 4096; omega
  | ⟨1, _⟩ => show win4_5.index t (1 : Fin 2) * 1 ≤ (i 1).val ∧ (i 1).val < win4_5.index t (1 : Fin 2) * 1 + 1; omega

/-- The result array after the launch. -/
theorem final4 (c : Dev nD) : (dat4 V c).arrAt 5 cfg4.N
    = dense (reluDense (V c main_v46) (V c main_v47) (V c main_v49)) (V c main_v48) (V c main_v50) :=
  (dat4 V c).arrAt_eq_of_cover 5 _ (fun t _ => flushed4 V c t) cover4

end Cert.KernelIdeal.Blocks

end
-- ==== Proof.RefStages.lean ====
/-
  The reference's five layers, each as one of the layer functions of its operands. The reference computes a layer as a
  dot_general, the additions (the residual array first, or a bias vector spread as a row and then down the rows) and
  the maximum with the broadcast zero constant; these are relu (x·w), relu (x·w + r), relu (x·w + b) and, for the
  last layer, h·w + b, of the operands' stages.
-/
import proofs.«156353_j65558380806593_1_alg».proof.Proof.Gen.ReferenceIdeal.Read
import proofs.«156353_j65558380806593_1_alg».proof.Proof.LibReluLayers

noncomputable section

namespace Cert.ReferenceIdeal.Stages

open Cert.ReferenceIdeal Cert.ReferenceIdeal.Read Idealize.ShloMosaic
open Cert.Layers Cert.LibMatRows Cert.LibPlainRecord Cert.LibDenseLayers

/-- The reference's five products are plain matrix products. -/
theorem rowsE0 : RowsTimesMat dot_S400000x147_S147x300_S400000x300_1_0_0_1_n_n := rowsTimesMat_of_lists _ rfl rfl rfl rfl rfl rfl
theorem rowsE1 : RowsTimesMat dot_S400000x300_S300x300_S400000x300_1_0_0_1_n_n := rowsTimesMat_of_lists _ rfl rfl rfl rfl rfl rfl
theorem rowsA : RowsTimesMat dot_S100000x433_S433x300_S100000x300_1_0_0_1_n_n := rowsTimesMat_of_lists _ rfl rfl rfl rfl rfl rfl
theorem rowsM1 : RowsTimesMat dot_S4096x300_S300x300_S4096x300_1_0_0_1_n_n := rowsTimesMat_of_lists _ rfl rfl rfl rfl rfl rfl
theorem rowsM2 : RowsTimesMat dot_S4096x300_S300x1_S4096x1_1_0_0_1_n_n := rowsTimesMat_of_lists _ rfl rfl rfl rfl rfl rfl

variable (x0 : (⟨S100000x133, .f32⟩ : BufTy).Contents (Elt Ideal)) (x1 : (⟨S2x400000, .i32⟩ : BufTy).Contents (Elt Ideal))
  (x2 : (⟨S400000x14, .f32⟩ : BufTy).Contents (Elt Ideal)) (x3 : (⟨S100000, .i32⟩ : BufTy).Contents (Elt Ideal))
  (x4 : (⟨S300x147, .f32⟩ : BufTy).Contents (Elt Ideal)) (x5 : (⟨S300x300, .f32⟩ : BufTy).Contents (Elt Ideal))
  (x6 : (⟨S300x433, .f32⟩ : BufTy).Contents (Elt Ideal)) (x7 : (⟨S300, .f32⟩ : BufTy).Contents (Elt Ideal))
  (x8 : (⟨S300x300, .f32⟩ : BufTy).Contents (Elt Ideal)) (x9 : (⟨S300, .f32⟩ : BufTy).Contents (Elt Ideal))
  (x10 : (⟨S1x300, .f32⟩ : BufTy).Contents (Elt Ideal)) (x11 : (⟨S1, .f32⟩ : BufTy).Contents (Elt Ideal))

/-- The initial messages: relu (edge features · W_i^T). -/
theorem stage_v14 : val_main_v14 (F := Ideal) x0 x1 x2 x4
    = reluLin (val_main_v11 (F := Ideal) x0 x1 x2) (val_main_v12 (F := Ideal) x4) := by
  unfold val_main_v14 val_main_v13 val_main_call0_v0 val_main_call0_cst
  exact host_reluLin rowsE0 _ _ _

/-- The first update: relu (gathered sums · W_h^T + messages). -/
theorem stage_v28 : val_main_v28 (F := Ideal) x0 x1 x2 x4 x5
    = reluLinRes (val_main_v24 (F := Ideal) x0 x1 x2 x4) (val_main_v14 (F := Ideal) x0 x1 x2 x4) (val_main_v25 (F := Ideal) x5) := by
  unfold val_main_v28 val_main_v27 val_main_v26 val_main_call1_v0 val_main_call1_cst
  exact host_reluLinRes rowsE1 _ _ _ _

/-- The second update. -/
theorem stage_v42 : val_main_v42 (F := Ideal) x0 x1 x2 x4 x5
    = reluLinRes (val_main_v38 (F := Ideal) x0 x1 x2 x4 x5) (val_main_v28 (F := Ideal) x0 x1 x2 x4 x5) (val_main_v39 (F := Ideal) x5) := by
  unfold val_main_v42 val_main_v41 val_main_v40 val_main_call2_v0 val_main_call2_cst
  exact host_reluLinRes rowsE1 _ _ _ _

/-- The atom hidden states: relu (atom inputs · W_o^T + b_o). -/
theorem stage_v52 : val_main_v52 (F := Ideal) x0 x1 x2 x4 x5 x6 x7
    = reluDense (val_main_v46 (F := Ideal) x0 x1 x2 x4 x5) (val_main_v47 (F := Ideal) x6) (val_main_v49 (F := Ideal) x7) := by
  unfold val_main_v52 val_main_v51 val_main_v50 val_main_v48 val_main_call3_v0 val_main_call3_cst
  exact host_reluDense rowsA _ _ _ _ _

/-- The readout's hidden layer: relu (molecule sums · W_1^T + b_1). -/
theorem stage_v61 : val_main_v61 (F := Ideal) x0 x1 x2 x3 x4 x5 x6 x7 x8 x9
    = reluDense (val_main_v55 (F := Ideal) x0 x1 x2 x3 x4 x5 x6 x7) (val_main_v56 (F := Ideal) x8) (val_main_v58 (F := Ideal) x9) := by
  unfold val_main_v61 val_main_v60 val_main_v59 val_main_v57 val_main_call4_v0 val_main_call4_cst
  exact host_reluDense rowsM1 _ _ _ _ _

/-- The result: hidden · W_2^T + b_2. -/
theorem stage_v66 : val_main_v66 (F := Ideal) x0 x1 x2 x3 x4 x5 x6 x7 x8 x9 x10 x11
    = dense (reluDense (val_main_v55 (F := Ideal) x0 x1 x2 x3 x4 x5 x6 x7) (val_main_v56 (F := Ideal) x8) (val_main_v58 (F := Ideal) x9))
        (val_main_v62 (F := Ideal) x10) (val_main_v64 (F := Ideal) x11) := by
  unfold val_main_v66 val_main_v65 val_main_v63
  refine (host_denseLast rowsM2 _ _ _ _).trans ?_
  rw [stage_v61]

end Cert.ReferenceIdeal.Stages

end
-- ==== Proof.Chain.lean ====
/-
  The idealized kernel's buffers at the boundaries between its ten segments, each as the reference's stage of the
  twelve argument arrays.

  @main alternates stretches of host operations with the five launches. At each boundary the buffers a later segment
  reads are identified, in program order: the edge endpoints and the first layer's operands after the first stretch;
  the first layer's output after the first launch (relu (features · W_i^T), which is the reference's initial
  messages); then, stretch by stretch, the scattered sums gathered back to the edges, the transposed weights and the
  bias rows — the same host operations on both sides, applied to values already identified — and, launch by launch,
  the layer functions of them. A buffer that a stretch does not write and a launch does not own keeps its contents
  across them. The kernel reshapes a bias vector to a row where the reference broadcasts it to a row: the same row.
  The last launch's output is the reference's result.
-/
import proofs.«156353_j65558380806593_1_alg».proof.Proof.KernelIdealFramePatched
import proofs.«156353_j65558380806593_1_alg».proof.Proof.Gen.ReferenceIdeal.Read
import proofs.«156353_j65558380806593_1_alg».proof.Proof.Region0
import proofs.«156353_j65558380806593_1_alg».proof.Proof.Region1
import proofs.«156353_j65558380806593_1_alg».proof.Proof.Region2
import proofs.«156353_j65558380806593_1_alg».proof.Proof.Region3
import proofs.«156353_j65558380806593_1_alg».proof.Proof.Region4
import proofs.«156353_j65558380806593_1_alg».proof.Proof.RefStages
import Idealize.ShloMosaic.Lib.StableHlo.Run

set_option maxRecDepth 16384
set_option maxHeartbeats 1600000

noncomputable section

namespace Cert.KernelIdeal.Chain

open Cert.KernelIdeal Cert.KernelIdeal.Gen Idealize.ShloMosaic Idealize.ShloMosaic.TcCoe Idealize.ShloMosaic.StableHlo
open Idealize.SL.Sem
open Cert.KernelIdeal.Blocks Cert.ReferenceIdeal.Stages Cert.Layers Cert.LibDenseLayers

variable (m : (ℓ : Loc nD τ sig) → Buf (Elt Ideal) ℓ) (ρ : Dev nD → PrngReg) (c : Dev nD)

/-! ## After the first stretch -/

/-- The edges' source endpoints, -/
theorem W1_v1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp <;> rfl
/-- their target endpoints, -/
theorem W1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp <;> rfl
/-- the edge features (the source atoms' rows joined to the bond features), -/
theorem V1_v11 : V1 m ρ c main_v11 = Cert.ReferenceIdeal.Read.val_main_v11 (F := Ideal) (m ((c : Thread nD τ).loc main_arg0)) (m ((c : Thread nD τ).loc main_arg1)) (m ((c : Thread nD τ).loc main_arg2)) := by
  show StableHlo.after hostOps0 (W0 m ρ c) (Proc.devRef .tc main_v11) = _
  after_results_simp <;> rfl
/-- and the transposed first weights. -/
theorem V1_v12 : V1 m ρ c main_v12 = Cert.ReferenceIdeal.Read.val_main_v12 (F := Ideal) (m ((c : Thread nD τ).loc main_arg4)) := by
  show StableHlo.after hostOps0 (W0 m ρ c) (Proc.devRef .tc main_v12) = _
  after_results_simp <;> rfl

/-! ## After the first launch -/

/-- The initial messages. -/
theorem W2_v13 : W2 m ρ c (Proc.devRef .tc main_v13) = Cert.ReferenceIdeal.Read.val_main_v14 (F := Ideal) (m ((c : Thread nD τ).loc main_arg0)) (m ((c : Thread nD τ).loc main_arg1)) (m ((c : Thread nD τ).loc main_arg2)) (m ((c : Thread nD τ).loc main_arg4)) := by
  rw [show W2 m ρ c (Proc.devRef .tc main_v13) = (dat0 (V1 m ρ) c).arrAt 2 cfg0.N from W2_arr m ρ c 2,
    final0, V1_v11, V1_v12, stage_v14]

theorem W2_v1 : W2 m ρ c (Proc.devRef .tc main_v1) = Cert.ReferenceIdeal.Read.val_main_v1 (F := Ideal) (m ((c : Thread nD τ).loc main_arg1)) := by
  rw [W2_of_ne m ρ c main_v1 (by decide)]
  exact W1_v1 m ρ c

theorem W2_v3 : W2 m ρ c (Proc.devRef .tc main_v3) = Cert.ReferenceIdeal.Read.val_main_v3 (F := Ideal) (m ((c : Thread nD τ).loc main_arg1)) := by
  rw [W2_of_ne m ρ c main_v3 (by decide)]
  exact W1_v3 m ρ c

theorem W2_arg5 : W2 m ρ c (Proc.devRef .tc main_arg5) = (m ((c : Thread nD τ).loc main_arg5)) := by
  rw [W2_of_ne m ρ c main_arg5 (by decide)]
  show StableHlo.after hostOps0 (W0 m ρ c) (Proc.devRef .tc main_arg5) = _
  after_results_simp
  all_goals rfl

/-! ## After the second stretch -/

/-- The sums over incoming edges, gathered back to the edges' sources. -/
theorem V3_v24 : V3 m ρ c main_v24 = Cert.ReferenceIdeal.Read.val_main_v24 (F := Ideal) (m ((c : Thread nD τ).loc main_arg0)) (m ((c : Thread nD τ).loc main_arg1)) (m ((c : Thread nD τ).loc main_arg2)) (m ((c : Thread nD τ).loc main_arg4)) := by
  show StableHlo.after hostOps1 (W2 m ρ c) (Proc.devRef .tc main_v24) = _
  after_results_simp
  rw [W2_v13, W2_v3, W2_v1]
  rfl
/-- The messages themselves, untouched by the stretch. -/
theorem V3_v13 : V3 m ρ c main_v13 = Cert.ReferenceIdeal.Read.val_main_v14 (F := Ideal) (m ((c : Thread nD τ).loc main_arg0)) (m ((c : Thread nD τ).loc main_arg1)) (m ((c : Thread nD τ).loc main_arg2)) (m ((c : Thread nD τ).loc main_arg4)) := by
  show StableHlo.after hostOps1 (W2 m ρ c) (Proc.devRef .tc main_v13) = _
  after_results_simp
  exact W2_v13 m ρ c
/-- The transposed message weights. -/
theorem V3_v14 : V3 m ρ c main_v14 = Cert.ReferenceIdeal.Read.val_main_v25 (F := Ideal) (m ((c : Thread nD τ).loc main_arg5)) := by
  show StableHlo.after hostOps1 (W2 m ρ c) (Proc.devRef .tc main_v14) = _
  after_results_simp
  rw [W2_arg5]
  rfl

/-! ## After the second launch -/

theorem W4_v25 : W4 m ρ c (Proc.devRef .tc main_v25) = Cert.ReferenceIdeal.Read.val_main_v28 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  rw [show W4 m ρ c (Proc.devRef .tc main_v25) = (dat1 (V3 m ρ) c).arrAt 3 cfg1.N from W4_arr m ρ c 3,
    final1, V3_v24, V3_v13, V3_v14, stage_v28]

theorem W4_v1 : W4 m ρ c (Proc.devRef .tc main_v1) = Cert.ReferenceIdeal.Read.val_main_v1 (F := Ideal) (m ((c : Thread nD τ).loc main_arg1)) := by
  rw [W4_of_ne m ρ c main_v1 (by decide)]
  show StableHlo.after hostOps1 (W2 m ρ c) (Proc.devRef .tc main_v1) = _
  after_results_simp
  rw [W2_of_ne m ρ c main_v1 (by decide)]
  exact W1_v1 m ρ c

theorem W4_v3 : W4 m ρ c (Proc.devRef .tc main_v3) = Cert.ReferenceIdeal.Read.val_main_v3 (F := Ideal) (m ((c : Thread nD τ).loc main_arg1)) := by
  rw [W4_of_ne m ρ c main_v3 (by decide)]
  show StableHlo.after hostOps1 (W2 m ρ c) (Proc.devRef .tc main_v3) = _
  after_results_simp
  rw [W2_of_ne m ρ c main_v3 (by decide)]
  exact W1_v3 m ρ c

/-- The transposed message weights are an input of the second launch, which leaves them as they were. -/
theorem W4_v14 : W4 m ρ c (Proc.devRef .tc main_v14) = Cert.ReferenceIdeal.Read.val_main_v25 (F := Ideal) (m ((c : Thread nD τ).loc main_arg5)) := by
  rw [show W4 m ρ c (Proc.devRef .tc main_v14) = (dat1 (V3 m ρ) c).arrAt 2 cfg1.N from W4_arr m ρ c 2,
    (dat1 (V3 m ρ) c).arrAt_in 2 rfl cfg1.N]
  exact V3_v14 m ρ c

/-! ## After the third stretch -/

theorem V5_v35 : V5 m ρ c main_v35 = Cert.ReferenceIdeal.Read.val_main_v38 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  show StableHlo.after hostOps2 (W4 m ρ c) (Proc.devRef .tc main_v35) = _
  after_results_simp
  rw [W4_v25, W4_v3, W4_v1]
  rfl
theorem V5_v25 : V5 m ρ c main_v25 = Cert.ReferenceIdeal.Read.val_main_v28 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  show StableHlo.after hostOps2 (W4 m ρ c) (Proc.devRef .tc main_v25) = _
  after_results_simp
  exact W4_v25 m ρ c
theorem V5_v14 : V5 m ρ c main_v14 = Cert.ReferenceIdeal.Read.val_main_v39 (F := Ideal) (m ((c : Thread nD τ).loc main_arg5)) := by
  show StableHlo.after hostOps2 (W4 m ρ c) (Proc.devRef .tc main_v14) = _
  after_results_simp
  exact W4_v14 m ρ c

/-! ## After the third launch -/

theorem W6_v36 : W6 m ρ c (Proc.devRef .tc main_v36) = Cert.ReferenceIdeal.Read.val_main_v42 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  rw [show W6 m ρ c (Proc.devRef .tc main_v36) = (dat2 (V5 m ρ) c).arrAt 3 cfg2.N from W6_arr m ρ c 3,
    final2, V5_v35, V5_v25, V5_v14, stage_v42]

theorem W6_v3 : W6 m ρ c (Proc.devRef .tc main_v3) = Cert.ReferenceIdeal.Read.val_main_v3 (F := Ideal) (m ((c : Thread nD τ).loc main_arg1)) := by
  rw [W6_of_ne m ρ c main_v3 (by decide)]
  show StableHlo.after hostOps2 (W4 m ρ c) (Proc.devRef .tc main_v3) = _
  after_results_simp
  rw [W4_of_ne m ρ c main_v3 (by decide)]
  show StableHlo.after hostOps1 (W2 m ρ c) (Proc.devRef .tc main_v3) = _
  after_results_simp
  rw [W2_of_ne m ρ c main_v3 (by decide)]
  exact W1_v3 m ρ c

theorem W6_arg0 : W6 m ρ c (Proc.devRef .tc main_arg0) = (m ((c : Thread nD τ).loc main_arg0)) := by
  rw [W6_of_ne m ρ c main_arg0 (by decide)]
  show StableHlo.after hostOps2 (W4 m ρ c) (Proc.devRef .tc main_arg0) = _
  after_results_simp
  rw [W4_of_ne m ρ c main_arg0 (by decide)]
  show StableHlo.after hostOps1 (W2 m ρ c) (Proc.devRef .tc main_arg0) = _
  after_results_simp
  rw [W2_of_ne m ρ c main_arg0 (by decide)]
  show StableHlo.after hostOps0 (W0 m ρ c) (Proc.devRef .tc main_arg0) = _
  after_results_simp
  all_goals rfl

theorem W6_arg6 : W6 m ρ c (Proc.devRef .tc main_arg6) = (m ((c : Thread nD τ).loc main_arg6)) := by
  rw [W6_of_ne m ρ c main_arg6 (by decide)]
  show StableHlo.after hostOps2 (W4 m ρ c) (Proc.devRef .tc main_arg6) = _
  after_results_simp
  rw [W4_of_ne m ρ c main_arg6 (by decide)]
  show StableHlo.after hostOps1 (W2 m ρ c) (Proc.devRef .tc main_arg6) = _
  after_results_simp
  rw [W2_of_ne m ρ c main_arg6 (by decide)]
  show StableHlo.after hostOps0 (W0 m ρ c) (Proc.devRef .tc main_arg6) = _
  after_results_simp
  all_goals rfl

theorem W6_arg7 : W6 m ρ c (Proc.devRef .tc main_arg7) = (m ((c : Thread nD τ).loc main_arg7)) := by
  rw [W6_of_ne m ρ c main_arg7 (by decide)]
  show StableHlo.after hostOps2 (W4 m ρ c) (Proc.devRef .tc main_arg7) = _
  after_results_simp
  rw [W4_of_ne m ρ c main_arg7 (by decide)]
  show StableHlo.after hostOps1 (W2 m ρ c) (Proc.devRef .tc main_arg7) = _
  after_results_simp
  rw [W2_of_ne m ρ c main_arg7 (by decide)]
  show StableHlo.after hostOps0 (W0 m ρ c) (Proc.devRef .tc main_arg7) = _
  after_results_simp
  all_goals rfl

/-! ## After the fourth stretch -/

/-- The atom inputs: the atom features joined to the sums of the final messages. -/
theorem V7_v40 : V7 m ρ c main_v40 = Cert.ReferenceIdeal.Read.val_main_v46 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  show StableHlo.after hostOps3 (W6 m ρ c) (Proc.devRef .tc main_v40) = _
  after_results
  rw [W6_v36, W6_v3, W6_arg0]
  rfl
theorem V7_v41 : V7 m ρ c main_v41 = Cert.ReferenceIdeal.Read.val_main_v47 (F := Ideal) (m ((c : Thread nD τ).loc main_arg6)) := by
  show StableHlo.after hostOps3 (W6 m ρ c) (Proc.devRef .tc main_v41) = _
  after_results_simp
  rw [W6_arg6]
  rfl
/-- The bias vector reshaped to a row is the bias vector broadcast to a row. -/
theorem V7_v42 : V7 m ρ c main_v42 = Cert.ReferenceIdeal.Read.val_main_v49 (F := Ideal) (m ((c : Thread nD τ).loc main_arg7)) := by
  show StableHlo.after hostOps3 (W6 m ρ c) (Proc.devRef .tc main_v42) = _
  after_results_simp
  rw [W6_arg7]
  exact (bias_row_eq _ _ _).symm

/-! ## After the fourth launch -/

theorem W8_v43 : W8 m ρ c (Proc.devRef .tc main_v43) = Cert.ReferenceIdeal.Read.val_main_v52 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  rw [show W8 m ρ c (Proc.devRef .tc main_v43) = (dat3 (V7 m ρ) c).arrAt 3 cfg3.N from W8_arr m ρ c 3,
    final3, V7_v40, V7_v41, V7_v42, stage_v52]

theorem W8_arg3 : W8 m ρ c (Proc.devRef .tc main_arg3) = (m ((c : Thread nD τ).loc main_arg3)) := by
  rw [W8_of_ne m ρ c main_arg3 (by decide)]
  show StableHlo.after hostOps3 (W6 m ρ c) (Proc.devRef .tc main_arg3) = _
  after_results_simp
  rw [W6_of_ne m ρ c main_arg3 (by decide)]
  show StableHlo.after hostOps2 (W4 m ρ c) (Proc.devRef .tc main_arg3) = _
  after_results_simp
  rw [W4_of_ne m ρ c main_arg3 (by decide)]
  show StableHlo.after hostOps1 (W2 m ρ c) (Proc.devRef .tc main_arg3) = _
  after_results_simp
  rw [W2_of_ne m ρ c main_arg3 (by decide)]
  show StableHlo.after hostOps0 (W0 m ρ c) (Proc.devRef .tc main_arg3) = _
  after_results_simp
  all_goals rfl

theorem W8_arg8 : W8 m ρ c (Proc.devRef .tc main_arg8) = (m ((c : Thread nD τ).loc main_arg8)) := by
  rw [W8_of_ne m ρ c main_arg8 (by decide)]
  show StableHlo.after hostOps3 (W6 m ρ c) (Proc.devRef .tc main_arg8) = _
  after_results_simp
  rw [W6_of_ne m ρ c main_arg8 (by decide)]
  show StableHlo.after hostOps2 (W4 m ρ c) (Proc.devRef .tc main_arg8) = _
  after_results_simp
  rw [W4_of_ne m ρ c main_arg8 (by decide)]
  show StableHlo.after hostOps1 (W2 m ρ c) (Proc.devRef .tc main_arg8) = _
  after_results_simp
  rw [W2_of_ne m ρ c main_arg8 (by decide)]
  show StableHlo.after hostOps0 (W0 m ρ c) (Proc.devRef .tc main_arg8) = _
  after_results_simp
  all_goals rfl

theorem W8_arg9 : W8 m ρ c (Proc.devRef .tc main_arg9) = (m ((c : Thread nD τ).loc main_arg9)) := by
  rw [W8_of_ne m ρ c main_arg9 (by decide)]
  show StableHlo.after hostOps3 (W6 m ρ c) (Proc.devRef .tc main_arg9) = _
  after_results_simp
  rw [W6_of_ne m ρ c main_arg9 (by decide)]
  show StableHlo.after hostOps2 (W4 m ρ c) (Proc.devRef .tc main_arg9) = _
  after_results_simp
  rw [W4_of_ne m ρ c main_arg9 (by decide)]
  show StableHlo.after hostOps1 (W2 m ρ c) (Proc.devRef .tc main_arg9) = _
  after_results_simp
  rw [W2_of_ne m ρ c main_arg9 (by decide)]
  show StableHlo.after hostOps0 (W0 m ρ c) (Proc.devRef .tc main_arg9) = _
  after_results_simp
  all_goals rfl

theorem W8_arg10 : W8 m ρ c (Proc.devRef .tc main_arg10) = (m ((c : Thread nD τ).loc main_arg10)) := by
  rw [W8_of_ne m ρ c main_arg10 (by decide)]
  show StableHlo.after hostOps3 (W6 m ρ c) (Proc.devRef .tc main_arg10) = _
  after_results_simp
  rw [W6_of_ne m ρ c main_arg10 (by decide)]
  show StableHlo.after hostOps2 (W4 m ρ c) (Proc.devRef .tc main_arg10) = _
  after_results_simp
  rw [W4_of_ne m ρ c main_arg10 (by decide)]
  show StableHlo.after hostOps1 (W2 m ρ c) (Proc.devRef .tc main_arg10) = _
  after_results_simp
  rw [W2_of_ne m ρ c main_arg10 (by decide)]
  show StableHlo.after hostOps0 (W0 m ρ c) (Proc.devRef .tc main_arg10) = _
  after_results_simp
  all_goals rfl

theorem W8_arg11 : W8 m ρ c (Proc.devRef .tc main_arg11) = (m ((c : Thread nD τ).loc main_arg11)) := by
  rw [W8_of_ne m ρ c main_arg11 (by decide)]
  show StableHlo.after hostOps3 (W6 m ρ c) (Proc.devRef .tc main_arg11) = _
  after_results_simp
  rw [W6_of_ne m ρ c main_arg11 (by decide)]
  show StableHlo.after hostOps2 (W4 m ρ c) (Proc.devRef .tc main_arg11) = _
  after_results_simp
  rw [W4_of_ne m ρ c main_arg11 (by decide)]
  show StableHlo.after hostOps1 (W2 m ρ c) (Proc.devRef .tc main_arg11) = _
  after_results_simp
  rw [W2_of_ne m ρ c main_arg11 (by decide)]
  show StableHlo.after hostOps0 (W0 m ρ c) (Proc.devRef .tc main_arg11) = _
  after_results_simp
  all_goals rfl

/-! ## After the fifth stretch -/

/-- The molecule sums of the atom hidden states. -/
theorem V9_v46 : V9 m ρ c main_v46 = Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps4 (W8 m ρ c) (Proc.devRef .tc main_v46) = _
  after_results_simp
  rw [W8_v43, W8_arg3]
  rfl
theorem V9_v47 : V9 m ρ c main_v47 = Cert.ReferenceIdeal.Read.val_main_v56 (F := Ideal) (m ((c : Thread nD τ).loc main_arg8)) := by
  show StableHlo.after hostOps4 (W8 m ρ c) (Proc.devRef .tc main_v47) = _
  after_results_simp
  rw [W8_arg8]
  rfl
theorem V9_v48 : V9 m ρ c main_v48 = Cert.ReferenceIdeal.Read.val_main_v62 (F := Ideal) (m ((c : Thread nD τ).loc main_arg10)) := by
  show StableHlo.after hostOps4 (W8 m ρ c) (Proc.devRef .tc main_v48) = _
  after_results_simp
  rw [W8_arg10]
  rfl
theorem V9_v49 : V9 m ρ c main_v49 = Cert.ReferenceIdeal.Read.val_main_v58 (F := Ideal) (m ((c : Thread nD τ).loc main_arg9)) := by
  show StableHlo.after hostOps4 (W8 m ρ c) (Proc.devRef .tc main_v49) = _
  after_results_simp
  rw [W8_arg9]
  exact (bias_row_eq _ _ _).symm
theorem V9_v50 : V9 m ρ c main_v50 = Cert.ReferenceIdeal.Read.val_main_v64 (F := Ideal) (m ((c : Thread nD τ).loc main_arg11)) := by
  show StableHlo.after hostOps4 (W8 m ρ c) (Proc.devRef .tc main_v50) = _
  after_results_simp
  rw [W8_arg11]
  exact (bias_row_eq _ _ _).symm

/-! ## After the last launch -/

/-- The kernel's result buffer ends at the reference's result stage of the arguments. -/
theorem W10_v51 : W10 m ρ c (Proc.devRef .tc main_v51) = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [show W10 m ρ c (Proc.devRef .tc main_v51) = (dat4 (V9 m ρ) c).arrAt 5 cfg4.N from W10_arr m ρ c 5,
    final4, V9_v46, V9_v47, V9_v49, V9_v48, V9_v50, stage_v66]

end Cert.KernelIdeal.Chain

end
-- ==== Proof.lean ====
/-
  The claim for the directed-edge message-passing network: the kernel program (five launches — the input layer over
  the 400000 edges, two message updates with a residual, the atom layer over the 100000 atoms, and the readout head
  over the 4096 molecules — among host gathers, segment sums, joins and transposes) against the plain reference.

  Both idealized programs apply the same host operations in the same order; they differ only inside the five layers,
  where the kernel tiles the rows, rounds its operands to bf16 (the identity on extended reals), multiplies into a
  zero accumulator, adds the residual to the product where the reference adds the product to the residual, and
  reshapes a bias vector to a row where the reference broadcasts it. Row tiling does not change a matrix product's
  entries, a product into the zero accumulator is the dot_general's sum, and addition of extended reals commutes:
  so each launch's output array is the reference's stage of the same operands, boundary by boundary, and the two
  results are equal whatever the arguments hold — the precondition is not used by the value claim.

  The three frames are the generated frame runs (the reference's is its generated run with the result dropped);
  the ideal pass rewrote nothing, so the idealization claim is trivial.
-/
import proofs.«156353_j65558380806593_1_alg».proof.Defs
import proofs.«156353_j65558380806593_1_alg».proof.Proof.Gen.Kernel
import proofs.«156353_j65558380806593_1_alg».proof.Proof.Gen.Kernel.Skeleton
import proofs.«156353_j65558380806593_1_alg».proof.Proof.KernelLaunchPatched
import proofs.«156353_j65558380806593_1_alg».proof.Proof.Gen.Kernel.Points
import proofs.«156353_j65558380806593_1_alg».proof.Proof.KernelFramePatched
import proofs.«156353_j65558380806593_1_alg».proof.Proof.Gen.KernelIdeal
import proofs.«156353_j65558380806593_1_alg».proof.Proof.Gen.KernelIdeal.Skeleton
import proofs.«156353_j65558380806593_1_alg».proof.Proof.KernelIdealLaunchPatched
import proofs.«156353_j65558380806593_1_alg».proof.Proof.Gen.KernelIdeal.Points
import proofs.«156353_j65558380806593_1_alg».proof.Proof.KernelIdealFramePatched
import proofs.«156353_j65558380806593_1_alg».proof.Proof.Gen.ReferenceIdeal
import proofs.«156353_j65558380806593_1_alg».proof.Proof.Gen.ReferenceIdeal.Run
import proofs.«156353_j65558380806593_1_alg».proof.Proof.Gen.ReferenceIdeal.Read
import proofs.«156353_j65558380806593_1_alg».proof.Proof.Gen.Pre_finite_inputs
import proofs.«156353_j65558380806593_1_alg».proof.Proof.RunValue
import proofs.«156353_j65558380806593_1_alg».proof.Proof.Chain
import Idealize.ShloMosaic.Adequacy
import Idealize.ShloMosaic.Init

noncomputable section

namespace Cert.Proof

open Idealize.ShloMosaic Idealize.ShloMosaic.TcCoe Idealize.SL.Sem

/-- The kernel runs and leaves its arguments as launched. -/
theorem frame_k : @Cert.frame_Kernel Cert.Kernel.Gen.facts Cert.Pre_finite_inputs.Gen.facts :=
  fun m ρ _ => Cert.Kernel.Gen.frame m ρ

/-- So does its idealization. -/
theorem frame_ki : @Cert.frame_KernelIdeal Cert.KernelIdeal.Gen.facts Cert.Pre_finite_inputs.Gen.facts :=
  fun m ρ _ => Cert.KernelIdeal.Gen.frame m ρ

/-- The reference's run, its result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- The ideal pass rewrote no operation. -/
theorem preserves : Cert.preserves_Kernel_KernelIdeal := trivial

/-- From memories agreeing on the arguments both idealized programs run, and the kernel's result buffer — the last
    launch's output, identified boundary by boundary with the reference's stages — holds the reference's result. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Gen.W10 m ρ c (Proc.devRef .tc Cert.KernelIdeal.main_v51),
    Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v66_eq, a0, a1, a2, a3, a4, a5, a6, a7, a8, a9, a10, a11]
  exact (Cert.KernelIdeal.Chain.W10_v51 m ρ c).symm

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
